-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v5)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v5) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v59) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8192x513 : Shape := ⟨2, ![8192, 513]⟩
abbrev S8192x1024 : Shape := ⟨2, ![8192, 1024]⟩
abbrev S512x5120 : Shape := ⟨2, ![512, 5120]⟩
abbrev S1x2048 : Shape := ⟨2, ![1, 2048]⟩
abbrev S1024x4096 : Shape := ⟨2, ![1024, 4096]⟩
abbrev S5120 : Shape := ⟨1, ![5120]⟩
abbrev S_ : Shape := ⟨0, ![]⟩

class Facts : Prop where
  bcast_S_S8192x513 : S_.BroadcastsInDim S8192x513 (![] : Fin 0 → Fin S8192x513.rank)
  reducesTo_S8192x513_S_d0_1 : S8192x513.ReducesTo [0, 1] S_
  h_S_ : 0 < S_.numel
  bcast_S_S8192x1024 : S_.BroadcastsInDim S8192x1024 (![] : Fin 0 → Fin S8192x1024.rank)
  reducesTo_S8192x1024_S_d0_1 : S8192x1024.ReducesTo [0, 1] S_
  bcast_S_S512x5120 : S_.BroadcastsInDim S512x5120 (![] : Fin 0 → Fin S512x5120.rank)
  reducesTo_S512x5120_S_d0_1 : S512x5120.ReducesTo [0, 1] S_
  bcast_S_S1x2048 : S_.BroadcastsInDim S1x2048 (![] : Fin 0 → Fin S1x2048.rank)
  reducesTo_S1x2048_S_d0_1 : S1x2048.ReducesTo [0, 1] S_
  bcast_S_S1024x4096 : S_.BroadcastsInDim S1024x4096 (![] : Fin 0 → Fin S1024x4096.rank)
  reducesTo_S1024x4096_S_d0_1 : S1024x4096.ReducesTo [0, 1] S_
  bcast_S_S5120 : S_.BroadcastsInDim S5120 (![] : Fin 0 → Fin S5120.rank)
  reducesTo_S5120_S_d0 : S5120.ReducesTo [0] S_

variable [Facts]

def fn_part1 {F : FTy → Type} [FloatOps F] (main_arg4 : FVec F S1x2048 .f32) (main_arg5 : FVec F S1024x4096 .f32) (main_arg6 : FVec F S5120 .f32) (main_v13 : IVec S_ 1) (main_v16 : IVec S512x5120 1) : IVec S_ 1 :=
  let main_c_5 : IVec S_ 1 := constantI S_ 1 1#1
  let main_v17 : IVec S_ 1 := (fun x v => Host.reduce IntOp.andi x v reducesTo_S512x5120_S_d0_1 h_S_) main_v16 main_c_5
  let main_v18 : IVec S_ 1 := andi main_v13 main_v17
  let main_v19 : FVec F S1x2048 .f32 := Host.absf main_arg4
  let main_cst_6 : FVec F S_ .f32 := constant S_ .f32 0x7F800000#32
  let main_v20 : FVec F S1x2048 .f32 := broadcastInDim S1x2048 ![] bcast_S_S1x2048 main_cst_6
  let main_v21 : IVec S1x2048 1 := cmpf .olt main_v19 main_v20
  let main_c_7 : IVec S_ 1 := constantI S_ 1 1#1
  let main_v22 : IVec S_ 1 := (fun x v => Host.reduce IntOp.andi x v reducesTo_S1x2048_S_d0_1 h_S_) main_v21 main_c_7
  let main_v23 : IVec S_ 1 := andi main_v18 main_v22
  let main_v24 : FVec F S1024x4096 .f32 := Host.absf main_arg5
  let main_cst_8 : FVec F S_ .f32 := constant S_ .f32 0x7F800000#32
  let main_v25 : FVec F S1024x4096 .f32 := broadcastInDim S1024x4096 ![] bcast_S_S1024x4096 main_cst_8
  let main_v26 : IVec S1024x4096 1 := cmpf .olt main_v24 main_v25
  let main_c_9 : IVec S_ 1 := constantI S_ 1 1#1
  let main_v27 : IVec S_ 1 := (fun x v => Host.reduce IntOp.andi x v reducesTo_S1024x4096_S_d0_1 h_S_) main_v26 main_c_9
  let main_v28 : IVec S_ 1 := andi main_v23 main_v27
  let main_v29 : FVec F S5120 .f32 := Host.absf main_arg6
  let main_cst_10 : FVec F S_ .f32 := constant S_ .f32 0x7F800000#32
  let main_v30 : FVec F S5120 .f32 := broadcastInDim S5120 ![] bcast_S_S5120 main_cst_10
  let main_v31 : IVec S5120 1 := cmpf .olt main_v29 main_v30
  let main_c_11 : IVec S_ 1 := constantI S_ 1 1#1
  let main_v32 : IVec S_ 1 := (fun x v => Host.reduce IntOp.andi x v reducesTo_S5120_S_d0 h_S_) main_v31 main_c_11
  let main_v33 : IVec S_ 1 := andi main_v28 main_v32
  main_v33

def fn {F : FTy → Type} [FloatOps F] (main_arg0 : FVec F S8192x513 .f32) (main_arg1 : FVec F S8192x1024 .f32) (main_arg2 : FVec F S8192x1024 .f32) (main_arg3 : FVec F S512x5120 .f32) (main_arg4 : FVec F S1x2048 .f32) (main_arg5 : FVec F S1024x4096 .f32) (main_arg6 : FVec F S5120 .f32) : IVec S_ 1 :=
  let main_v0 : FVec F S8192x513 .f32 := Host.absf main_arg0
  let main_cst : FVec F S_ .f32 := constant S_ .f32 0x7F800000#32
  let main_v1 : FVec F S8192x513 .f32 := broadcastInDim S8192x513 ![] bcast_S_S8192x513 main_cst
  let main_v2 : IVec S8192x513 1 := cmpf .olt main_v0 main_v1
  let main_c : IVec S_ 1 := constantI S_ 1 1#1
  let main_v3 : IVec S_ 1 := (fun x v => Host.reduce IntOp.andi x v reducesTo_S8192x513_S_d0_1 h_S_) main_v2 main_c
  let main_v4 : FVec F S8192x1024 .f32 := Host.absf main_arg1
  let main_cst_0 : FVec F S_ .f32 := constant S_ .f32 0x7F800000#32
  let main_v5 : FVec F S8192x1024 .f32 := broadcastInDim S8192x1024 ![] bcast_S_S8192x1024 main_cst_0
  let main_v6 : IVec S8192x1024 1 := cmpf .olt main_v4 main_v5
  let main_c_1 : IVec S_ 1 := constantI S_ 1 1#1
  let main_v7 : IVec S_ 1 := (fun x v => Host.reduce IntOp.andi x v reducesTo_S8192x1024_S_d0_1 h_S_) main_v6 main_c_1
  let main_v8 : IVec S_ 1 := andi main_v3 main_v7
  let main_v9 : FVec F S8192x1024 .f32 := Host.absf main_arg2
  let main_cst_2 : FVec F S_ .f32 := constant S_ .f32 0x7F800000#32
  let main_v10 : FVec F S8192x1024 .f32 := broadcastInDim S8192x1024 ![] bcast_S_S8192x1024 main_cst_2
  let main_v11 : IVec S8192x1024 1 := cmpf .olt main_v9 main_v10
  let main_c_3 : IVec S_ 1 := constantI S_ 1 1#1
  let main_v12 : IVec S_ 1 := (fun x v => Host.reduce IntOp.andi x v reducesTo_S8192x1024_S_d0_1 h_S_) main_v11 main_c_3
  let main_v13 : IVec S_ 1 := andi main_v8 main_v12
  let main_v14 : FVec F S512x5120 .f32 := Host.absf main_arg3
  let main_cst_4 : FVec F S_ .f32 := constant S_ .f32 0x7F800000#32
  let main_v15 : FVec F S512x5120 .f32 := broadcastInDim S512x5120 ![] bcast_S_S512x5120 main_cst_4
  let main_v16 : IVec S512x5120 1 := cmpf .olt main_v14 main_v15
  fn_part1 (F := F) main_arg4 main_arg5 main_arg6 main_v13 main_v16
-- ==== Kernel.lean ====
abbrev S8192x513 : Shape := ⟨2, ![8192, 513]⟩
abbrev S8192x1024 : Shape := ⟨2, ![8192, 1024]⟩
abbrev S512x5120 : Shape := ⟨2, ![512, 5120]⟩
abbrev S1x2048 : Shape := ⟨2, ![1, 2048]⟩
abbrev S1024x4096 : Shape := ⟨2, ![1024, 4096]⟩
abbrev S5120 : Shape := ⟨1, ![5120]⟩
abbrev S8192x512 : Shape := ⟨2, ![8192, 512]⟩
abbrev S8192x1 : Shape := ⟨2, ![8192, 1]⟩
abbrev S1x5120 : Shape := ⟨2, ![1, 5120]⟩
abbrev S256x512 : Shape := ⟨2, ![256, 512]⟩
abbrev S256x1 : Shape := ⟨2, ![256, 1]⟩
abbrev S256x1024 : Shape := ⟨2, ![256, 1024]⟩
abbrev S256x5120 : Shape := ⟨2, ![256, 5120]⟩
abbrev S256x2048 : Shape := ⟨2, ![256, 2048]⟩
abbrev S256x4096 : Shape := ⟨2, ![256, 4096]⟩

abbrev nBuf : Space → Nat
  | .hbm => 13
  | .vmem => 14
  | .smem => 0
  | _ => 0

abbrev bufTy : (tb : Table) → Fin (tcTables nBuf tb) → BufTy
  | .hbm, ⟨0, _⟩ => ⟨S8192x513, .f32⟩
  | .hbm, ⟨1, _⟩ => ⟨S8192x1024, .f32⟩
  | .hbm, ⟨2, _⟩ => ⟨S8192x1024, .f32⟩
  | .hbm, ⟨3, _⟩ => ⟨S512x5120, .f32⟩
  | .hbm, ⟨4, _⟩ => ⟨S1x2048, .f32⟩
  | .hbm, ⟨5, _⟩ => ⟨S1024x4096, .f32⟩
  | .hbm, ⟨6, _⟩ => ⟨S5120, .f32⟩
  | .hbm, ⟨7, _⟩ => ⟨S8192x512, .f32⟩
  | .hbm, ⟨8, _⟩ => ⟨S8192x1, .f32⟩
  | .hbm, ⟨9, _⟩ => ⟨S512x5120, .bf16⟩
  | .hbm, ⟨10, _⟩ => ⟨S1024x4096, .bf16⟩
  | .hbm, ⟨11, _⟩ => ⟨S1x5120, .f32⟩
  | .hbm, ⟨12, _⟩ => ⟨S8192x1024, .f32⟩
  | .local _ .vmem, ⟨0, _⟩ => ⟨S256x512, .f32⟩
  | .local _ .vmem, ⟨1, _⟩ => ⟨S256x512, .f32⟩
  | .local _ .vmem, ⟨2, _⟩ => ⟨S256x1, .f32⟩
  | .local _ .vmem, ⟨3, _⟩ => ⟨S256x1, .f32⟩
  | .local _ .vmem, ⟨4, _⟩ => ⟨S256x1024, .f32⟩
  | .local _ .vmem, ⟨5, _⟩ => ⟨S256x1024, .f32⟩
  | .local _ .vmem, ⟨6, _⟩ => ⟨S256x1024, .f32⟩
  | .local _ .vmem, ⟨7, _⟩ => ⟨S256x1024, .f32⟩
  | .local _ .vmem, ⟨8, _⟩ => ⟨S512x5120, .bf16⟩
  | .local _ .vmem, ⟨9, _⟩ => ⟨S1x2048, .f32⟩
  | .local _ .vmem, ⟨10, _⟩ => ⟨S1024x4096, .bf16⟩
  | .local _ .vmem, ⟨11, _⟩ => ⟨S1x5120, .f32⟩
  | .local _ .vmem, ⟨12, _⟩ => ⟨S256x1024, .f32⟩
  | .local _ .vmem, ⟨13, _⟩ => ⟨S256x1024, .f32⟩
  | _, _ => ⟨S8192x513, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg7_0 : Ref sig .tc := ⟨.vmem, 11, rfl⟩
abbrev cc0_stg8_0 : Ref sig .tc := ⟨.vmem, 12, rfl⟩
abbrev cc0_stg8_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem6_0 : DmaSem sig := 10
abbrev cc0_sem7_0 : DmaSem sig := 11
abbrev cc0_sem8_0 : DmaSem sig := 12
abbrev cc0_sem8_1 : DmaSem sig := 13

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x1 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S512x5120 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x2048 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1024x4096 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x5120 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 2 → Memref sig .tc .vmem S256x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

class Facts₀ : Prop where
  slices_S8192x513_S8192x512_0_0 : S8192x513.Slices ![0, 0] S8192x512
  slices_S8192x513_S8192x1_0_512 : S8192x513.Slices ![0, 512] S8192x1
  bitsLt_bf16_f32 : FTy.bits .bf16 < FTy.bits .f32
  shapeCasts_S5120_S1x5120 : S5120.ShapeCasts S1x5120
  inb_S256x512_S256x512_0_0 : ∀ a, (![0, 0] : Fin 2 → Nat) a + S256x512.size a ≤ S256x512.size a
  h_S256x512 : 0 < S256x512.numel
  shapeCasts_S256x512_S256x512 : S256x512.ShapeCasts S256x512
  inb_S512x5120_S512x5120_0_0 : ∀ a, (![0, 0] : Fin 2 → Nat) a + S512x5120.size a ≤ S512x5120.size a
  h_S512x5120 : 0 < S512x5120.numel
  shapeCasts_S512x5120_S512x5120 : S512x5120.ShapeCasts S512x5120
  inb_S1x5120_S1x5120_0_0 : ∀ a, (![0, 0] : Fin 2 → Nat) a + S1x5120.size a ≤ S1x5120.size a
  h_S1x5120 : 0 < S1x5120.numel
  shapeCasts_S1x5120_S1x5120 : S1x5120.ShapeCasts S1x5120
  broadcasts_S1x5120_S256x5120 : S1x5120.Broadcasts S256x5120
  slices_S256x5120_o0_0_S256x1024 : S256x5120.Slices ![0, 0] S256x1024
  slices_S256x5120_o0_1024_S256x1024 : S256x5120.Slices ![0, 1024] S256x1024
  slices_S256x5120_o0_2048_S256x1024 : S256x5120.Slices ![0, 2048] S256x1024
  slices_S256x5120_o0_3072_S256x1024 : S256x5120.Slices ![0, 3072] S256x1024
  slices_S256x5120_o0_4096_S256x1024 : S256x5120.Slices ![0, 4096] S256x1024
  inb_S256x1_S256x1_0_0 : ∀ a, (![0, 0] : Fin 2 → Nat) a + S256x1.size a ≤ S256x1.size a
  h_S256x1 : 0 < S256x1.numel
  shapeCasts_S256x1_S256x1 : S256x1.ShapeCasts S256x1
  inb_S1x2048_S1x2048_0_0 : ∀ a, (![0, 0] : Fin 2 → Nat) a + S1x2048.size a ≤ S1x2048.size a
  h_S1x2048 : 0 < S1x2048.numel
  broadcasts_S256x1_S256x2048 : S256x1.Broadcasts S256x2048
  broadcasts_S1x2048_S256x2048 : S1x2048.Broadcasts S256x2048
  slices_S256x2048_o0_0_S256x1024 : S256x2048.Slices ![0, 0] S256x1024
  slices_S256x2048_o0_1024_S256x1024 : S256x2048.Slices ![0, 1024] S256x1024
  inb_S256x1024_S256x1024_0_0 : ∀ a, (![0, 0] : Fin 2 → Nat) a + S256x1024.size a ≤ S256x1024.size a
  h_S256x1024 : 0 < S256x1024.numel
  inb_S1024x4096_S1024x4096_0_0 : ∀ a, (![0, 0] : Fin 2 → Nat) a + S1024x4096.size a ≤ S1024x4096.size a
  h_S1024x4096 : 0 < S1024x4096.numel
  shapeCasts_S1024x4096_S1024x4096 : S1024x4096.ShapeCasts S1024x4096
  slices_S256x4096_o0_0_S256x1024 : S256x4096.Slices ![0, 0] S256x1024
  slices_S256x4096_o0_1024_S256x1024 : S256x4096.Slices ![0, 1024] S256x1024
  slices_S256x4096_o0_2048_S256x1024 : S256x4096.Slices ![0, 2048] S256x1024
  slices_S256x4096_o0_3072_S256x1024 : S256x4096.Slices ![0, 3072] S256x1024
  dot_S256x512_S512x5120_S256x5120_1_0_0_1_n_n_wf : DotDims.WF S256x512 S512x5120 S256x5120 [1] [0] [0] [1] [] []
  dot_S256x1024_S1024x4096_S256x4096_1_0_0_1_n_n_wf : DotDims.WF S256x1024 S1024x4096 S256x4096 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S256x512.size a ≤ S8192x512.size a
  hwx0_0 : ∀ i : grid0.Coords, EltTy.bits .f32 = 32 ∨ (Rect.block (s := S8192x512) S256x512.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S256x1.size a ≤ S8192x1.size a
  hwx0_1 : ∀ i : grid0.Coords, EltTy.bits .f32 = 32 ∨ (Rect.block (s := S8192x1) S256x1.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S256x1024.size a ≤ S8192x1024.size a
  hwx0_2 : ∀ i : grid0.Coords, EltTy.bits .f32 = 32 ∨ (Rect.block (s := S8192x1024) S256x1024.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S256x1024.size a ≤ S8192x1024.size a
  hwx0_3 : ∀ i : grid0.Coords, EltTy.bits .f32 = 32 ∨ (Rect.block (s := S8192x1024) S256x1024.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S512x5120.size a ≤ S512x5120.size a
  hwx0_4 : ∀ i : grid0.Coords, EltTy.bits .bf16 = 32 ∨ (Rect.block (s := S512x5120) S512x5120.size (cc0_transform_4 i) (hinb0_4 i)).WholeWords (EltTy.packing .bf16)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S1x2048.size a ≤ S1x2048.size a
  hwx0_5 : ∀ i : grid0.Coords, EltTy.bits .f32 = 32 ∨ (Rect.block (s := S1x2048) S1x2048.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S1024x4096.size a ≤ S1024x4096.size a
  hwx0_6 : ∀ i : grid0.Coords, EltTy.bits .bf16 = 32 ∨ (Rect.block (s := S1024x4096) S1024x4096.size (cc0_transform_6 i) (hinb0_6 i)).WholeWords (EltTy.packing .bf16)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S1x5120.size a ≤ S1x5120.size a
  hwx0_7 : ∀ i : grid0.Coords, EltTy.bits .f32 = 32 ∨ (Rect.block (s := S1x5120) S1x5120.size (cc0_transform_7 i) (hinb0_7 i)).WholeWords (EltTy.packing .f32)
  hstage0_8 : ∀ j, (stage0_8 j).IsWhole
  nbuf0_8 : grid0.bufCount reads0_8 false = 2
  hreads0_8 : ∀ i i' : grid0.Coords, (∀ a, reads0_8 a = true → i a = i' a) → cc0_transform_8 i = cc0_transform_8 i'
  hinb0_8 : ∀ (i : grid0.Coords) a, (cc0_transform_8 i a + 1) * S256x1024.size a ≤ S8192x1024.size a
  hwx0_8 : ∀ i : grid0.Coords, EltTy.bits .f32 = 32 ∨ (Rect.block (s := S8192x1024) S256x1024.size (cc0_transform_8 i) (hinb0_8 i)).WholeWords (EltTy.packing .f32)

variable [Facts₀]

def dot_S256x512_S512x5120_S256x5120_1_0_0_1_n_n : DotDims S256x512 S512x5120 S256x5120 where
  lhsContracting := [1]
  rhsContracting := [0]
  lhsNonContracting := [0]
  rhsNonContracting := [1]
  lhsBatch := []
  rhsBatch := []
  wf := dot_S256x512_S512x5120_S256x5120_1_0_0_1_n_n_wf
def dot_S256x1024_S1024x4096_S256x4096_1_0_0_1_n_n : DotDims S256x1024 S1024x4096 S256x4096 where
  lhsContracting := [1]
  rhsContracting := [0]
  lhsNonContracting := [0]
  rhsNonContracting := [1]
  lhsBatch := []
  rhsBatch := []
  wf := dot_S256x1024_S1024x4096_S256x4096_1_0_0_1_n_n_wf

abbrev win0_0 : Pipeline.Window sig grid0 :=
  Pipeline.Window.ofSpec (Memref.whole main_v0) S256x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v1) S256x1.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg1) S256x1024.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_arg2) S256x1024.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v2) S512x5120.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_arg4) S1x2048.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v3) S1024x4096.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v4) S1x5120.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_v5) S256x1024.size cc0_transform_8 reads0_8 true false 2 stage0_8 sem0_8
    hrank0 hreads0_8 hinb0_8 nbuf0_8 (Memref.isWhole_whole _) hwx0_8 hstage0_8

abbrev win0 : Fin 9 → Pipeline.Window sig grid0 := fun | 0 => win0_0 | 1 => win0_1 | 2 => win0_2 | 3 => win0_3 | 4 => win0_4 | 5 => win0_5 | 6 => win0_6 | 7 => win0_7 | 8 => win0_8 | ⟨_ + 9, h⟩ => absurd h (Nat.not_lt.2 (Nat.le_add_left _ _))
abbrev spec0 : Fin 9 → Pipeline.WinSpec sig grid0.rank := fun w => (win0 w).toWinSpec

class Facts : Prop extends Facts₀ where

variable [Facts]
-- ==== ReferenceIdeal.lean ====
abbrev S8192x513 : Shape := ⟨2, ![8192, 513]⟩
abbrev S8192x1024 : Shape := ⟨2, ![8192, 1024]⟩
abbrev S512x5120 : Shape := ⟨2, ![512, 5120]⟩
abbrev S1x2048 : Shape := ⟨2, ![1, 2048]⟩
abbrev S1024x4096 : Shape := ⟨2, ![1024, 4096]⟩
abbrev S5120 : Shape := ⟨1, ![5120]⟩
abbrev S8192x512 : Shape := ⟨2, ![8192, 512]⟩
abbrev S8192x1 : Shape := ⟨2, ![8192, 1]⟩
abbrev S8192x5120 : Shape := ⟨2, ![8192, 5120]⟩
abbrev S1x5120 : Shape := ⟨2, ![1, 5120]⟩
abbrev S8192x2048 : Shape := ⟨2, ![8192, 2048]⟩
abbrev S1024x1024 : Shape := ⟨2, ![1024, 1024]⟩
abbrev S_ : Shape := ⟨0, ![]⟩

abbrev nBuf : Space → Nat
  | .hbm => 112
  | .vmem => 0
  | .smem => 0
  | _ => 0

abbrev bufTy : (tb : Table) → Fin (tcTables nBuf tb) → BufTy
  | .hbm, ⟨0, _⟩ => ⟨S8192x513, .f32⟩
  | .hbm, ⟨1, _⟩ => ⟨S8192x1024, .f32⟩
  | .hbm, ⟨2, _⟩ => ⟨S8192x1024, .f32⟩
  | .hbm, ⟨3, _⟩ => ⟨S512x5120, .f32⟩
  | .hbm, ⟨4, _⟩ => ⟨S1x2048, .f32⟩
  | .hbm, ⟨5, _⟩ => ⟨S1024x4096, .f32⟩
  | .hbm, ⟨6, _⟩ => ⟨S5120, .f32⟩
  | .hbm, ⟨7, _⟩ => ⟨S8192x512, .f32⟩
  | .hbm, ⟨8, _⟩ => ⟨S8192x1, .f32⟩
  | .hbm, ⟨9, _⟩ => ⟨S8192x5120, .f32⟩
  | .hbm, ⟨10, _⟩ => ⟨S1x5120, .f32⟩
  | .hbm, ⟨11, _⟩ => ⟨S8192x5120, .f32⟩
  | .hbm, ⟨12, _⟩ => ⟨S8192x5120, .f32⟩
  | .hbm, ⟨13, _⟩ => ⟨S8192x1024, .f32⟩
  | .hbm, ⟨14, _⟩ => ⟨S8192x1024, .f32⟩
  | .hbm, ⟨15, _⟩ => ⟨S8192x1024, .f32⟩
  | .hbm, ⟨16, _⟩ => ⟨S8192x1024, .f32⟩
  | .hbm, ⟨17, _⟩ => ⟨S8192x1024, .f32⟩
  | .hbm, ⟨18, _⟩ => ⟨S8192x2048, .f32⟩
  | .hbm, ⟨19, _⟩ => ⟨S8192x1024, .f32⟩
  | .hbm, ⟨20, _⟩ => ⟨S8192x1024, .f32⟩
  | .hbm, ⟨21, _⟩ => ⟨S1024x1024, .f32⟩
  | .hbm, ⟨22, _⟩ => ⟨S1024x1024, .f32⟩
  | .hbm, ⟨23, _⟩ => ⟨S1024x1024, .f32⟩
  | .hbm, ⟨24, _⟩ => ⟨S1024x1024, .f32⟩
  | .hbm, ⟨25, _⟩ => ⟨S_, .f32⟩
  | .hbm, ⟨26, _⟩ => ⟨S8192x1024, .f32⟩
  | .hbm, ⟨27, _⟩ => ⟨S8192x1024, .f32⟩
  | .hbm, ⟨28, _⟩ => ⟨S_, .f32⟩
  | .hbm, ⟨29, _⟩ => ⟨S8192x1024, .f32⟩
  | .hbm, ⟨30, _⟩ => ⟨S8192x1024, .f32⟩
  | .hbm, ⟨31, _⟩ => ⟨S_, .f32⟩
  | .hbm, ⟨32, _⟩ => ⟨S_, .f32⟩
  | .hbm, ⟨33, _⟩ => ⟨S_, .f32⟩
  | .hbm, ⟨34, _⟩ => ⟨S8192x1024, .f32⟩
  | .hbm, ⟨35, _⟩ => ⟨S8192x1024, .f32⟩
  | .hbm, ⟨36, _⟩ => ⟨S_, .f32⟩
  | .hbm, ⟨37, _⟩ => ⟨S8192x1024, .f32⟩
  | .hbm, ⟨38, _⟩ => ⟨S8192x1024, .f32⟩
  | .hbm, ⟨39, _⟩ => ⟨S8192x1024, .f32⟩
  | .hbm, ⟨40, _⟩ => ⟨S_, .f32⟩
  | .hbm, ⟨41, _⟩ => ⟨S8192x1024, .f32⟩
  | .hbm, ⟨42, _⟩ => ⟨S8192x1024, .f32⟩
  | .hbm, ⟨43, _⟩ => ⟨S_, .f32⟩
  | .hbm, ⟨44, _⟩ => ⟨S8192x1024, .f32⟩
  | .hbm, ⟨45, _⟩ => ⟨S8192x1024, .f32⟩
  | .hbm, ⟨46, _⟩ => ⟨S_, .f32⟩
  | .hbm, ⟨47, _⟩ => ⟨S_, .f32⟩
  | .hbm, ⟨48, _⟩ => ⟨S_, .f32⟩
  | .hbm, ⟨49, _⟩ => ⟨S8192x1024, .f32⟩
  | .hbm, ⟨50, _⟩ => ⟨S8192x1024, .f32⟩
  | .hbm, ⟨51, _⟩ => ⟨S_, .f32⟩
  | .hbm, ⟨52, _⟩ => ⟨S8192x1024, .f32⟩
  | .hbm, ⟨53, _⟩ => ⟨S8192x1024, .f32⟩
  | .hbm, ⟨54, _⟩ => ⟨S8192x1024, .f32⟩
  | .hbm, ⟨55, _⟩ => ⟨S8192x1024, .f32⟩
  | .hbm, ⟨56, _⟩ => ⟨S_, .f32⟩
  | .hbm, ⟨57, _⟩ => ⟨S8192x1024, .f32⟩
  | .hbm, ⟨58, _⟩ => ⟨S8192x1024, .f32⟩
  | .hbm, ⟨59, _⟩ => ⟨S_, .f32⟩
  | .hbm, ⟨60, _⟩ => ⟨S8192x1024, .f32⟩
  | .hbm, ⟨61, _⟩ => ⟨S8192x1024, .f32⟩
  | .hbm, ⟨62, _⟩ => ⟨S_, .f32⟩
  | .hbm, ⟨63, _⟩ => ⟨S_, .f32⟩
  | .hbm, ⟨64, _⟩ => ⟨S_, .f32⟩
  | .hbm, ⟨65, _⟩ => ⟨S8192x1024, .f32⟩
  | .hbm, ⟨66, _⟩ => ⟨S8192x1024, .f32⟩
  | .hbm, ⟨67, _⟩ => ⟨S_, .f32⟩
  | .hbm, ⟨68, _⟩ => ⟨S8192x1024, .f32⟩
  | .hbm, ⟨69, _⟩ => ⟨S8192x1024, .f32⟩
  | .hbm, ⟨70, _⟩ => ⟨S8192x1024, .f32⟩
  | .hbm, ⟨71, _⟩ => ⟨S8192x1024, .f32⟩
  | .hbm, ⟨72, _⟩ => ⟨S_, .f32⟩
  | .hbm, ⟨73, _⟩ => ⟨S8192x1024, .f32⟩
  | .hbm, ⟨74, _⟩ => ⟨S8192x1024, .f32⟩
  | .hbm, ⟨75, _⟩ => ⟨S_, .f32⟩
  | .hbm, ⟨76, _⟩ => ⟨S8192x1024, .f32⟩
  | .hbm, ⟨77, _⟩ => ⟨S8192x1024, .f32⟩
  | .hbm, ⟨78, _⟩ => ⟨S_, .f32⟩
  | .hbm, ⟨79, _⟩ => ⟨S_, .f32⟩
  | .hbm, ⟨80, _⟩ => ⟨S_, .f32⟩
  | .hbm, ⟨81, _⟩ => ⟨S8192x1024, .f32⟩
  | .hbm, ⟨82, _⟩ => ⟨S8192x1024, .f32⟩
  | .hbm, ⟨83, _⟩ => ⟨S_, .f32⟩
  | .hbm, ⟨84, _⟩ => ⟨S8192x1024, .f32⟩
  | .hbm, ⟨85, _⟩ => ⟨S8192x1024, .f32⟩
  | .hbm, ⟨86, _⟩ => ⟨S8192x1024, .f32⟩
  | .hbm, ⟨87, _⟩ => ⟨S8192x1024, .f32⟩
  | .hbm, ⟨88, _⟩ => ⟨S8192x1024, .f32⟩
  | .hbm, ⟨89, _⟩ => ⟨S8192x1024, .f32⟩
  | .hbm, ⟨90, _⟩ => ⟨S8192x1024, .f32⟩
  | .hbm, ⟨91, _⟩ => ⟨S8192x1024, .f32⟩
  | .hbm, ⟨92, _⟩ => ⟨S8192x1024, .f32⟩
  | .hbm, ⟨93, _⟩ => ⟨S8192x1024, .f32⟩
  | .hbm, ⟨94, _⟩ => ⟨S8192x1024, .f32⟩
  | .hbm, ⟨95, _⟩ => ⟨S8192x1024, .f32⟩
  | .hbm, ⟨96, _⟩ => ⟨S_, .f32⟩
  | .hbm, ⟨97, _⟩ => ⟨S8192x1024, .f32⟩
  | .hbm, ⟨98, _⟩ => ⟨S8192x1024, .f32⟩
  | .hbm, ⟨99, _⟩ => ⟨S_, .f32⟩
  | .hbm, ⟨100, _⟩ => ⟨S8192x1024, .f32⟩
  | .hbm, ⟨101, _⟩ => ⟨S8192x1024, .f32⟩
  | .hbm, ⟨102, _⟩ => ⟨S_, .f32⟩
  | .hbm, ⟨103, _⟩ => ⟨S_, .f32⟩
  | .hbm, ⟨104, _⟩ => ⟨S_, .f32⟩
  | .hbm, ⟨105, _⟩ => ⟨S8192x1024, .f32⟩
  | .hbm, ⟨106, _⟩ => ⟨S8192x1024, .f32⟩
  | .hbm, ⟨107, _⟩ => ⟨S_, .f32⟩
  | .hbm, ⟨108, _⟩ => ⟨S8192x1024, .f32⟩
  | .hbm, ⟨109, _⟩ => ⟨S8192x1024, .f32⟩
  | .hbm, ⟨110, _⟩ => ⟨S8192x1024, .f32⟩
  | .hbm, ⟨111, _⟩ => ⟨S8192x1024, .f32⟩
  | _, _ => ⟨S8192x513, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_cst : Ref sig .tc := ⟨.hbm, 25, rfl⟩
abbrev main_v18 : Ref sig .tc := ⟨.hbm, 26, rfl⟩
abbrev main_v19 : Ref sig .tc := ⟨.hbm, 27, rfl⟩
abbrev main_cst_0 : Ref sig .tc := ⟨.hbm, 28, rfl⟩
abbrev main_v20 : Ref sig .tc := ⟨.hbm, 29, rfl⟩
abbrev main_v21 : Ref sig .tc := ⟨.hbm, 30, rfl⟩
abbrev main_cst_1 : Ref sig .tc := ⟨.hbm, 31, rfl⟩
abbrev main_cst_2 : Ref sig .tc := ⟨.hbm, 32, rfl⟩
abbrev main_call0_v0 : Ref sig .tc := ⟨.hbm, 33, rfl⟩
abbrev main_call0_v1 : Ref sig .tc := ⟨.hbm, 34, rfl⟩
abbrev main_call0_v2 : Ref sig .tc := ⟨.hbm, 35, rfl⟩
abbrev main_call0_v3 : Ref sig .tc := ⟨.hbm, 36, rfl⟩
abbrev main_call0_v4 : Ref sig .tc := ⟨.hbm, 37, rfl⟩
abbrev main_v22 : Ref sig .tc := ⟨.hbm, 38, rfl⟩
abbrev main_v23 : Ref sig .tc := ⟨.hbm, 39, rfl⟩
abbrev main_cst_3 : Ref sig .tc := ⟨.hbm, 40, rfl⟩
abbrev main_v24 : Ref sig .tc := ⟨.hbm, 41, rfl⟩
abbrev main_v25 : Ref sig .tc := ⟨.hbm, 42, rfl⟩
abbrev main_cst_4 : Ref sig .tc := ⟨.hbm, 43, rfl⟩
abbrev main_v26 : Ref sig .tc := ⟨.hbm, 44, rfl⟩
abbrev main_v27 : Ref sig .tc := ⟨.hbm, 45, rfl⟩
abbrev main_cst_5 : Ref sig .tc := ⟨.hbm, 46, rfl⟩
abbrev main_cst_6 : Ref sig .tc := ⟨.hbm, 47, rfl⟩
abbrev main_call1_v0 : Ref sig .tc := ⟨.hbm, 48, rfl⟩
abbrev main_call1_v1 : Ref sig .tc := ⟨.hbm, 49, rfl⟩
abbrev main_call1_v2 : Ref sig .tc := ⟨.hbm, 50, rfl⟩
abbrev main_call1_v3 : Ref sig .tc := ⟨.hbm, 51, rfl⟩
abbrev main_call1_v4 : Ref sig .tc := ⟨.hbm, 52, rfl⟩
abbrev main_v28 : Ref sig .tc := ⟨.hbm, 53, rfl⟩
abbrev main_v29 : Ref sig .tc := ⟨.hbm, 54, rfl⟩
abbrev main_v30 : Ref sig .tc := ⟨.hbm, 55, rfl⟩
abbrev main_cst_7 : Ref sig .tc := ⟨.hbm, 56, rfl⟩
abbrev main_v31 : Ref sig .tc := ⟨.hbm, 57, rfl⟩
abbrev main_v32 : Ref sig .tc := ⟨.hbm, 58, rfl⟩
abbrev main_cst_8 : Ref sig .tc := ⟨.hbm, 59, rfl⟩
abbrev main_v33 : Ref sig .tc := ⟨.hbm, 60, rfl⟩
abbrev main_v34 : Ref sig .tc := ⟨.hbm, 61, rfl⟩
abbrev main_cst_9 : Ref sig .tc := ⟨.hbm, 62, rfl⟩
abbrev main_cst_10 : Ref sig .tc := ⟨.hbm, 63, rfl⟩
abbrev main_call2_v0 : Ref sig .tc := ⟨.hbm, 64, rfl⟩
abbrev main_call2_v1 : Ref sig .tc := ⟨.hbm, 65, rfl⟩
abbrev main_call2_v2 : Ref sig .tc := ⟨.hbm, 66, rfl⟩
abbrev main_call2_v3 : Ref sig .tc := ⟨.hbm, 67, rfl⟩
abbrev main_call2_v4 : Ref sig .tc := ⟨.hbm, 68, rfl⟩
abbrev main_v35 : Ref sig .tc := ⟨.hbm, 69, rfl⟩
abbrev main_v36 : Ref sig .tc := ⟨.hbm, 70, rfl⟩
abbrev main_v37 : Ref sig .tc := ⟨.hbm, 71, rfl⟩
abbrev main_cst_11 : Ref sig .tc := ⟨.hbm, 72, rfl⟩
abbrev main_v38 : Ref sig .tc := ⟨.hbm, 73, rfl⟩
abbrev main_v39 : Ref sig .tc := ⟨.hbm, 74, rfl⟩
abbrev main_cst_12 : Ref sig .tc := ⟨.hbm, 75, rfl⟩
abbrev main_v40 : Ref sig .tc := ⟨.hbm, 76, rfl⟩
abbrev main_v41 : Ref sig .tc := ⟨.hbm, 77, rfl⟩
abbrev main_cst_13 : Ref sig .tc := ⟨.hbm, 78, rfl⟩
abbrev main_cst_14 : Ref sig .tc := ⟨.hbm, 79, rfl⟩
abbrev main_call3_v0 : Ref sig .tc := ⟨.hbm, 80, rfl⟩
abbrev main_call3_v1 : Ref sig .tc := ⟨.hbm, 81, rfl⟩
abbrev main_call3_v2 : Ref sig .tc := ⟨.hbm, 82, rfl⟩
abbrev main_call3_v3 : Ref sig .tc := ⟨.hbm, 83, rfl⟩
abbrev main_call3_v4 : Ref sig .tc := ⟨.hbm, 84, rfl⟩
abbrev main_v42 : Ref sig .tc := ⟨.hbm, 85, rfl⟩
abbrev main_v43 : Ref sig .tc := ⟨.hbm, 86, rfl⟩
abbrev main_v44 : Ref sig .tc := ⟨.hbm, 87, rfl⟩
abbrev main_v45 : Ref sig .tc := ⟨.hbm, 88, rfl⟩
abbrev main_v46 : Ref sig .tc := ⟨.hbm, 89, rfl⟩
abbrev main_v47 : Ref sig .tc := ⟨.hbm, 90, rfl⟩
abbrev main_v48 : Ref sig .tc := ⟨.hbm, 91, rfl⟩
abbrev main_v49 : Ref sig .tc := ⟨.hbm, 92, rfl⟩
abbrev main_v50 : Ref sig .tc := ⟨.hbm, 93, rfl⟩
abbrev main_v51 : Ref sig .tc := ⟨.hbm, 94, rfl⟩
abbrev main_v52 : Ref sig .tc := ⟨.hbm, 95, rfl⟩
abbrev main_cst_15 : Ref sig .tc := ⟨.hbm, 96, rfl⟩
abbrev main_v53 : Ref sig .tc := ⟨.hbm, 97, rfl⟩
abbrev main_v54 : Ref sig .tc := ⟨.hbm, 98, rfl⟩
abbrev main_cst_16 : Ref sig .tc := ⟨.hbm, 99, rfl⟩
abbrev main_v55 : Ref sig .tc := ⟨.hbm, 100, rfl⟩
abbrev main_v56 : Ref sig .tc := ⟨.hbm, 101, rfl⟩
abbrev main_cst_17 : Ref sig .tc := ⟨.hbm, 102, rfl⟩
abbrev main_cst_18 : Ref sig .tc := ⟨.hbm, 103, rfl⟩
abbrev main_call4_v0 : Ref sig .tc := ⟨.hbm, 104, rfl⟩
abbrev main_call4_v1 : Ref sig .tc := ⟨.hbm, 105, rfl⟩
abbrev main_call4_v2 : Ref sig .tc := ⟨.hbm, 106, rfl⟩
abbrev main_call4_v3 : Ref sig .tc := ⟨.hbm, 107, rfl⟩
abbrev main_call4_v4 : Ref sig .tc := ⟨.hbm, 108, rfl⟩
abbrev main_v57 : Ref sig .tc := ⟨.hbm, 109, rfl⟩
abbrev main_v58 : Ref sig .tc := ⟨.hbm, 110, rfl⟩
abbrev main_v59 : Ref sig .tc := ⟨.hbm, 111, rfl⟩

abbrev nD : Nat := 1
abbrev τ : Topo := Topo.v7x

variable {F : FTy → Type} [FloatOps F]

class Facts₀ : Prop where
  slices_S8192x513_S8192x512_0_0 : S8192x513.Slices ![0, 0] S8192x512
  slices_S8192x513_S8192x1_0_512 : S8192x513.Slices ![0, 512] S8192x1
  bcast_S5120_S1x5120_1 : S5120.BroadcastsInDim S1x5120 (![1] : Fin 1 → Fin S1x5120.rank)
  bcast_S1x5120_S8192x5120_0_1 : S1x5120.BroadcastsInDim S8192x5120 (![0, 1] : Fin 2 → Fin S8192x5120.rank)
  slices_S8192x5120_S8192x1024_0_0 : S8192x5120.Slices ![0, 0] S8192x1024
  slices_S8192x5120_S8192x1024_0_1024 : S8192x5120.Slices ![0, 1024] S8192x1024
  slices_S8192x5120_S8192x1024_0_2048 : S8192x5120.Slices ![0, 2048] S8192x1024
  slices_S8192x5120_S8192x1024_0_3072 : S8192x5120.Slices ![0, 3072] S8192x1024
  slices_S8192x5120_S8192x1024_0_4096 : S8192x5120.Slices ![0, 4096] S8192x1024
  slices_S8192x2048_S8192x1024_0_0 : S8192x2048.Slices ![0, 0] S8192x1024
  slices_S8192x2048_S8192x1024_0_1024 : S8192x2048.Slices ![0, 1024] S8192x1024
  slices_S1024x4096_S1024x1024_0_0 : S1024x4096.Slices ![0, 0] S1024x1024
  slices_S1024x4096_S1024x1024_0_1024 : S1024x4096.Slices ![0, 1024] S1024x1024
  slices_S1024x4096_S1024x1024_0_2048 : S1024x4096.Slices ![0, 2048] S1024x1024
  slices_S1024x4096_S1024x1024_0_3072 : S1024x4096.Slices ![0, 3072] S1024x1024
  bcast_S_S8192x1024 : S_.BroadcastsInDim S8192x1024 (![] : Fin 0 → Fin S8192x1024.rank)
  dot_S8192x512_S512x5120_S8192x5120_1_0_0_1_n_n_wf : DotDims.WF S8192x512 S512x5120 S8192x5120 [1] [0] [0] [1] [] []
  dot_S8192x1_S1x2048_S8192x2048_1_0_0_1_n_n_wf : DotDims.WF S8192x1 S1x2048 S8192x2048 [1] [0] [0] [1] [] []
  dot_S8192x1024_S1024x1024_S8192x1024_1_0_0_1_n_n_wf : DotDims.WF S8192x1024 S1024x1024 S8192x1024 [1] [0] [0] [1] [] []

variable [Facts₀]

def dot_S8192x512_S512x5120_S8192x5120_1_0_0_1_n_n : DotDims S8192x512 S512x5120 S8192x5120 where
  lhsContracting := [1]
  rhsContracting := [0]
  lhsNonContracting := [0]
  rhsNonContracting := [1]
  lhsBatch := []
  rhsBatch := []
  wf := dot_S8192x512_S512x5120_S8192x5120_1_0_0_1_n_n_wf
def dot_S8192x1_S1x2048_S8192x2048_1_0_0_1_n_n : DotDims S8192x1 S1x2048 S8192x2048 where
  lhsContracting := [1]
  rhsContracting := [0]
  lhsNonContracting := [0]
  rhsNonContracting := [1]
  lhsBatch := []
  rhsBatch := []
  wf := dot_S8192x1_S1x2048_S8192x2048_1_0_0_1_n_n_wf
def dot_S8192x1024_S1024x1024_S8192x1024_1_0_0_1_n_n : DotDims S8192x1024 S1024x1024 S8192x1024 where
  lhsContracting := [1]
  rhsContracting := [0]
  lhsNonContracting := [0]
  rhsNonContracting := [1]
  lhsBatch := []
  rhsBatch := []
  wf := dot_S8192x1024_S1024x1024_S8192x1024_1_0_0_1_n_n_wf

class Facts : Prop extends Facts₀ where

variable [Facts]
-- ==== Proof.Spec.lean ====
/-
  The value both programs compute, stated once over plain index types.

  One step of a time-aware LSTM cell on a batch of 8192 rows with 1024 units.  For a row with feature vector
  `x` (512 entries), elapsed time `δ`, previous hidden state `h` (1024 entries) and previous cell state `c`,
  and with weights `W` (512 × 5120), `tk` (2048), `R` (1024 × 4096) and bias `b` (5120):

    z n  = (∑ k, x k · W k n) + b n            (five gate pre-activations side by side, 1024 columns each)
    d n  = δ · tk n                            (two time terms side by side)
    r n  = ∑ k, h k · R k n                    (four recurrent terms side by side)

  and, for unit `j`, with the hard sigmoid `σ u = min 1 (max 0 (0.2 · u + 0.5))`,

    T  = σ (z (4096 + j) + σ (d j))
    i  = σ (z j + r j)
    f  = σ (z (1024 + j) + r (1024 + j))
    c' = f · c + (i · T) · tanh (z (2048 + j) + r (2048 + j))
    o  = σ ((z (3072 + j) + d (1024 + j)) + r (3072 + j))
    h' = o · tanh c'

  Everything is on the extended reals; the four constants are the exact values of the binary32 words
  that both programs carry (0.2 is the nearest binary32 number to one fifth, the same word on both sides).
-/
import Idealize.ShloMosaic.PureOps.Ideal
import Idealize.ShloMosaic.Lib.ValueIdx

noncomputable section

namespace Cert.TimeCell

open Idealize.ShloMosaic Idealize.ShloMosaic.ValueIdx

/-- The slope, the offset and the two clipping bounds of the hard sigmoid, as the binary32 words denote them. -/
abbrev slope : EReal := Ideal.ofBits .f32 0x3E4CCCCD#32
abbrev half : EReal := Ideal.ofBits .f32 0x3F000000#32
abbrev lo : EReal := Ideal.ofBits .f32 0x00000000#32
abbrev hi : EReal := Ideal.ofBits .f32 0x3F800000#32

/-- The hard sigmoid: the line `slope · u + half` clipped to `[lo, hi]`, lower bound first. -/
def hsig (u : EReal) : EReal := min hi (max lo (slope * u + half))

/-- The gate arithmetic of one unit, from its five input pre-activations, its two time terms, its four
    recurrent terms and its previous cell state. -/
def cell (zi zf zc zo zT dT dO ri rf rc ro c : EReal) : EReal :=
  hsig (zo + dO + ro) * Ideal.tanh (hsig (zf + rf) * c + hsig (zi + ri) * hsig (zT + hsig dT) * Ideal.tanh (zc + rc))

/-- Column `n` of the input pre-activations of a row: the row's features against column `n` of `W`, plus the bias. -/
def zrow (x : Fin 512 → EReal) (W : Fin 512 → Fin 5120 → EReal) (b : Fin 5120 → EReal) (n : Fin 5120) : EReal :=
  (∑ k : Fin 512, x k * W k n) + b n

/-- Column `n` of the recurrent terms of a row: the row's hidden state against column `n` of `R`. -/
def rrow (h : Fin 1024 → EReal) (R : Fin 1024 → Fin 4096 → EReal) (n : Fin 4096) : EReal :=
  ∑ k : Fin 1024, h k * R k n

/-- The new hidden state of unit `j` of a row. -/
def cellRow (x : Fin 512 → EReal) (δ : EReal) (h : Fin 1024 → EReal) (c : EReal)
    (W : Fin 512 → Fin 5120 → EReal) (tk : Fin 2048 → EReal) (R : Fin 1024 → Fin 4096 → EReal) (b : Fin 5120 → EReal)
    (j : Fin 1024) : EReal :=
  cell (zrow x W b ⟨j.val, by omega⟩) (zrow x W b ⟨1024 + j.val, by omega⟩) (zrow x W b ⟨2048 + j.val, by omega⟩)
    (zrow x W b ⟨3072 + j.val, by omega⟩) (zrow x W b ⟨4096 + j.val, by omega⟩)
    (δ * tk ⟨j.val, by omega⟩) (δ * tk ⟨1024 + j.val, by omega⟩)
    (rrow h R ⟨j.val, by omega⟩) (rrow h R ⟨1024 + j.val, by omega⟩) (rrow h R ⟨2048 + j.val, by omega⟩)
    (rrow h R ⟨3072 + j.val, by omega⟩) c

/-- The new hidden state at row `r`, unit `j`, from the seven argument arrays: the first 512 columns of `a0` are
    the features and its last column the elapsed time. -/
def rowOut (a0 : FVec Ideal ⟨2, ![8192, 513]⟩ .f32) (a1 a2 : FVec Ideal ⟨2, ![8192, 1024]⟩ .f32)
    (a3 : FVec Ideal ⟨2, ![512, 5120]⟩ .f32) (a4 : FVec Ideal ⟨2, ![1, 2048]⟩ .f32)
    (a5 : FVec Ideal ⟨2, ![1024, 4096]⟩ .f32) (a6 : FVec Ideal ⟨1, ![5120]⟩ .f32)
    (r : Fin 8192) (j : Fin 1024) : EReal :=
  cellRow (fun k => a0 (ix2 r ⟨k.val, by omega⟩)) (a0 (ix2 r ⟨512, by omega⟩)) (fun k => a1 (ix2 r k)) (a2 (ix2 r j))
    (fun k n => a3 (ix2 k n)) (fun n => a4 (ix2 ⟨0, by omega⟩ n)) (fun k n => a5 (ix2 k n)) (fun n => a6 (ix1 n)) j

/-- The whole result array. -/
def G (a0 : FVec Ideal ⟨2, ![8192, 513]⟩ .f32) (a1 a2 : FVec Ideal ⟨2, ![8192, 1024]⟩ .f32)
    (a3 : FVec Ideal ⟨2, ![512, 5120]⟩ .f32) (a4 : FVec Ideal ⟨2, ![1, 2048]⟩ .f32)
    (a5 : FVec Ideal ⟨2, ![1024, 4096]⟩ .f32) (a6 : FVec Ideal ⟨1, ![5120]⟩ .f32) :
    FVec Ideal ⟨2, ![8192, 1024]⟩ .f32 :=
  fun i => rowOut a0 a1 a2 a3 a4 a5 a6 (i 0) (i 1)

theorem G_ix2 (a0 : FVec Ideal ⟨2, ![8192, 513]⟩ .f32) (a1 a2 : FVec Ideal ⟨2, ![8192, 1024]⟩ .f32)
    (a3 : FVec Ideal ⟨2, ![512, 5120]⟩ .f32) (a4 : FVec Ideal ⟨2, ![1, 2048]⟩ .f32)
    (a5 : FVec Ideal ⟨2, ![1024, 4096]⟩ .f32) (a6 : FVec Ideal ⟨1, ![5120]⟩ .f32) (r : Fin 8192) (j : Fin 1024) :
    G a0 a1 a2 a3 a4 a5 a6 (ix2 r j) = rowOut a0 a1 a2 a3 a4 a5 a6 r j := rfl

end Cert.TimeCell

end
-- ==== Proof.RefValue.lean ====
/-
  The reference computes the specification.

  Read off one operation at a time, the reference's result at row `r`, unit `j` is the gate arithmetic
  `cell` of: the five column groups of `x · W + b` (one product sum over the 512 features, then five slices),
  the two column groups of the time term (a product sum over a single index, which is one product), and the
  four recurrent terms (four product sums over the 1024 hidden entries, each against one column group of `R`
  sliced out beforehand).  Slicing `R` before the product and slicing the product afterwards read the same
  entries of `R`, so each recurrent term is column `g · 1024 + j` of the one product `h · R`.
-/
import proofs.«143826_j37254546325730_2_alg».proof.Proof.Gen.ReferenceIdeal.Read
import proofs.«143826_j37254546325730_2_alg».proof.Proof.Spec

noncomputable section

namespace Cert.TimeCell.Ref

open Cert.ReferenceIdeal Cert.ReferenceIdeal.Read Idealize.ShloMosaic Idealize.ShloMosaic.ValueIdx Cert.TimeCell

/-- Two indices of a rank-two shape are equal when their coordinates are: both sides compute to the same pair. -/
local macro "idx2" : tactic =>
  `(tactic| (funext a; match a with
    | ⟨0, _⟩ => rfl
    | ⟨1, _⟩ => rfl))

variable (a0 : (⟨S8192x513, .f32⟩ : BufTy).Contents (Elt Ideal)) (a1 a2 : (⟨S8192x1024, .f32⟩ : BufTy).Contents (Elt Ideal))
  (a3 : (⟨S512x5120, .f32⟩ : BufTy).Contents (Elt Ideal)) (a4 : (⟨S1x2048, .f32⟩ : BufTy).Contents (Elt Ideal))
  (a5 : (⟨S1024x4096, .f32⟩ : BufTy).Contents (Elt Ideal)) (a6 : (⟨S5120, .f32⟩ : BufTy).Contents (Elt Ideal))

/-- Column `n` of `x · W + b` at row `r`: the features are the first 512 columns of `a0`. -/
theorem z_eq (r : Fin 8192) (n : Fin 5120) :
    val_main_v5 (F := Ideal) a0 a3 a6 (ix2 r n)
      = zrow (fun k => a0 (ix2 r ⟨k.val, by omega⟩)) (fun k n => a3 (ix2 k n)) (fun n => a6 (ix1 n)) n := by
  rw [val_main_v5_apply, val_main_v2_apply, val_main_v4_apply, val_main_v3_apply]
  unfold zrow
  refine congrArg₂ (· + ·) (Finset.sum_congr rfl fun k _ => ?_) ?_
  · rw [val_main_v0_apply]
    refine congrArg₂ (· * ·) (congrArg a0 ?_) (congrArg a3 ?_)
    · funext a; match a with
      | ⟨0, _⟩ => rfl
      | ⟨1, _⟩ => rfl
    · funext a; match a with
      | ⟨0, _⟩ => rfl
      | ⟨1, _⟩ => rfl
  · refine congrArg a6 ?_
    funext a; match a with
    | ⟨0, _⟩ => rfl

/-- The input gate's pre-activation: columns 0 … 1023. -/
theorem zi_eq (r : Fin 8192) (j : Fin 1024) :
    val_main_v6 (F := Ideal) a0 a3 a6 (ix2 r j)
      = zrow (fun k => a0 (ix2 r ⟨k.val, by omega⟩)) (fun k n => a3 (ix2 k n)) (fun n => a6 (ix1 n)) ⟨j.val, by omega⟩ := by
  rw [val_main_v6_apply, show idx_main_v6 (ix2 r j) = ix2 r (⟨j.val, by omega⟩ : Fin 5120) from by idx2]
  exact z_eq a0 a3 a6 r _

/-- The forget gate's: columns 1024 … 2047. -/
theorem zf_eq (r : Fin 8192) (j : Fin 1024) :
    val_main_v7 (F := Ideal) a0 a3 a6 (ix2 r j)
      = zrow (fun k => a0 (ix2 r ⟨k.val, by omega⟩)) (fun k n => a3 (ix2 k n)) (fun n => a6 (ix1 n)) ⟨1024 + j.val, by omega⟩ := by
  rw [val_main_v7_apply, show idx_main_v7 (ix2 r j) = ix2 r (⟨1024 + j.val, by omega⟩ : Fin 5120) from by idx2]
  exact z_eq a0 a3 a6 r _

/-- The candidate's: columns 2048 … 3071. -/
theorem zc_eq (r : Fin 8192) (j : Fin 1024) :
    val_main_v8 (F := Ideal) a0 a3 a6 (ix2 r j)
      = zrow (fun k => a0 (ix2 r ⟨k.val, by omega⟩)) (fun k n => a3 (ix2 k n)) (fun n => a6 (ix1 n)) ⟨2048 + j.val, by omega⟩ := by
  rw [val_main_v8_apply, show idx_main_v8 (ix2 r j) = ix2 r (⟨2048 + j.val, by omega⟩ : Fin 5120) from by idx2]
  exact z_eq a0 a3 a6 r _

/-- The output gate's: columns 3072 … 4095. -/
theorem zo_eq (r : Fin 8192) (j : Fin 1024) :
    val_main_v9 (F := Ideal) a0 a3 a6 (ix2 r j)
      = zrow (fun k => a0 (ix2 r ⟨k.val, by omega⟩)) (fun k n => a3 (ix2 k n)) (fun n => a6 (ix1 n)) ⟨3072 + j.val, by omega⟩ := by
  rw [val_main_v9_apply, show idx_main_v9 (ix2 r j) = ix2 r (⟨3072 + j.val, by omega⟩ : Fin 5120) from by idx2]
  exact z_eq a0 a3 a6 r _

/-- The time gate's: columns 4096 … 5119. -/
theorem zT_eq (r : Fin 8192) (j : Fin 1024) :
    val_main_v10 (F := Ideal) a0 a3 a6 (ix2 r j)
      = zrow (fun k => a0 (ix2 r ⟨k.val, by omega⟩)) (fun k n => a3 (ix2 k n)) (fun n => a6 (ix1 n)) ⟨4096 + j.val, by omega⟩ := by
  rw [val_main_v10_apply, show idx_main_v10 (ix2 r j) = ix2 r (⟨4096 + j.val, by omega⟩ : Fin 5120) from by idx2]
  exact z_eq a0 a3 a6 r _

/-- The time term: the product sum over the single contracted index is the one product `δ · tk n`, with `δ` the
    last column of `a0`. -/
theorem d_eq (r : Fin 8192) (n : Fin 2048) :
    val_main_v11 (F := Ideal) a0 a4 (ix2 r n) = a0 (ix2 r ⟨512, by omega⟩) * a4 (ix2 ⟨0, by omega⟩ n) := by
  rw [val_main_v11_apply, Fin.sum_univ_one, val_main_v1_apply]
  exact congrArg₂ (· * ·) (congrArg a0 (by idx2)) (congrArg a4 (by idx2))

/-- Its first column group, for the time gate. -/
theorem dT_eq (r : Fin 8192) (j : Fin 1024) :
    val_main_v12 (F := Ideal) a0 a4 (ix2 r j) = a0 (ix2 r ⟨512, by omega⟩) * a4 (ix2 ⟨0, by omega⟩ ⟨j.val, by omega⟩) := by
  rw [val_main_v12_apply, show idx_main_v12 (ix2 r j) = ix2 r (⟨j.val, by omega⟩ : Fin 2048) from by idx2]
  exact d_eq a0 a4 r _

/-- Its second column group, for the output gate. -/
theorem dO_eq (r : Fin 8192) (j : Fin 1024) :
    val_main_v13 (F := Ideal) a0 a4 (ix2 r j) = a0 (ix2 r ⟨512, by omega⟩) * a4 (ix2 ⟨0, by omega⟩ ⟨1024 + j.val, by omega⟩) := by
  rw [val_main_v13_apply, show idx_main_v13 (ix2 r j) = ix2 r (⟨1024 + j.val, by omega⟩ : Fin 2048) from by idx2]
  exact d_eq a0 a4 r _

/-- The input gate's recurrent term: `h` against columns 0 … 1023 of `R`, sliced out before the product. -/
theorem ri_eq (r : Fin 8192) (j : Fin 1024) :
    val_main_v29 (F := Ideal) a1 a5 (ix2 r j)
      = rrow (fun k => a1 (ix2 r k)) (fun k n => a5 (ix2 k n)) ⟨j.val, by omega⟩ := by
  rw [val_main_v29_apply]
  unfold rrow
  refine Finset.sum_congr rfl fun k _ => ?_
  rw [val_main_v14_apply]
  exact congrArg₂ (· * ·) (congrArg a1 (by idx2)) (congrArg a5 (by idx2))

/-- The forget gate's: columns 1024 … 2047. -/
theorem rf_eq (r : Fin 8192) (j : Fin 1024) :
    val_main_v36 (F := Ideal) a1 a5 (ix2 r j)
      = rrow (fun k => a1 (ix2 r k)) (fun k n => a5 (ix2 k n)) ⟨1024 + j.val, by omega⟩ := by
  rw [val_main_v36_apply]
  unfold rrow
  refine Finset.sum_congr rfl fun k _ => ?_
  rw [val_main_v15_apply]
  exact congrArg₂ (· * ·) (congrArg a1 (by idx2)) (congrArg a5 (by idx2))

/-- The candidate's: columns 2048 … 3071. -/
theorem rc_eq (r : Fin 8192) (j : Fin 1024) :
    val_main_v45 (F := Ideal) a1 a5 (ix2 r j)
      = rrow (fun k => a1 (ix2 r k)) (fun k n => a5 (ix2 k n)) ⟨2048 + j.val, by omega⟩ := by
  rw [val_main_v45_apply]
  unfold rrow
  refine Finset.sum_congr rfl fun k _ => ?_
  rw [val_main_v16_apply]
  exact congrArg₂ (· * ·) (congrArg a1 (by idx2)) (congrArg a5 (by idx2))

/-- The output gate's: columns 3072 … 4095. -/
theorem ro_eq (r : Fin 8192) (j : Fin 1024) :
    val_main_v51 (F := Ideal) a1 a5 (ix2 r j)
      = rrow (fun k => a1 (ix2 r k)) (fun k n => a5 (ix2 k n)) ⟨3072 + j.val, by omega⟩ := by
  rw [val_main_v51_apply]
  unfold rrow
  refine Finset.sum_congr rfl fun k _ => ?_
  rw [val_main_v17_apply]
  exact congrArg₂ (· * ·) (congrArg a1 (by idx2)) (congrArg a5 (by idx2))

/-- The reference's result at row `r`, unit `j`: every remaining operation is pointwise, so the result is the gate
    arithmetic of the eleven terms above and the previous cell state. -/
theorem result_apply (r : Fin 8192) (j : Fin 1024) :
    val_main_v59 (F := Ideal) a0 a1 a2 a3 a4 a5 a6 (ix2 r j) = rowOut a0 a1 a2 a3 a4 a5 a6 r j := by
  simp only [
    val_main_cst_apply, val_main_v18_apply, val_main_v19_apply, val_main_cst_0_apply, val_main_v20_apply, val_main_v21_apply,
    val_main_cst_1_apply, val_main_cst_2_apply, val_main_call0_v0_apply, val_main_call0_v1_apply, val_main_call0_v2_apply, val_main_call0_v3_apply,
    val_main_call0_v4_apply, val_main_v22_apply, val_main_v23_apply, val_main_cst_3_apply, val_main_v24_apply, val_main_v25_apply,
    val_main_cst_4_apply, val_main_v26_apply, val_main_v27_apply, val_main_cst_5_apply, val_main_cst_6_apply, val_main_call1_v0_apply,
    val_main_call1_v1_apply, val_main_call1_v2_apply, val_main_call1_v3_apply, val_main_call1_v4_apply, val_main_v28_apply, val_main_v30_apply,
    val_main_cst_7_apply, val_main_v31_apply, val_main_v32_apply, val_main_cst_8_apply, val_main_v33_apply, val_main_v34_apply,
    val_main_cst_9_apply, val_main_cst_10_apply, val_main_call2_v0_apply, val_main_call2_v1_apply, val_main_call2_v2_apply, val_main_call2_v3_apply,
    val_main_call2_v4_apply, val_main_v35_apply, val_main_v37_apply, val_main_cst_11_apply, val_main_v38_apply, val_main_v39_apply,
    val_main_cst_12_apply, val_main_v40_apply, val_main_v41_apply, val_main_cst_13_apply, val_main_cst_14_apply, val_main_call3_v0_apply,
    val_main_call3_v1_apply, val_main_call3_v2_apply, val_main_call3_v3_apply, val_main_call3_v4_apply, val_main_v42_apply, val_main_v43_apply,
    val_main_v44_apply, val_main_v46_apply, val_main_v47_apply, val_main_v48_apply, val_main_v49_apply, val_main_v50_apply,
    val_main_v52_apply, val_main_cst_15_apply, val_main_v53_apply, val_main_v54_apply, val_main_cst_16_apply, val_main_v55_apply,
    val_main_v56_apply, val_main_cst_17_apply, val_main_cst_18_apply, val_main_call4_v0_apply, val_main_call4_v1_apply, val_main_call4_v2_apply,
    val_main_call4_v3_apply, val_main_call4_v4_apply, val_main_v57_apply, val_main_v58_apply, val_main_v59_apply,
    zi_eq, zf_eq, zc_eq, zo_eq, zT_eq, dT_eq, dO_eq, ri_eq, rf_eq, rc_eq, ro_eq,
    Ideal.ofBits_def, Ideal.addf_def, Ideal.mulf_def, Ideal.maximumf_def, Ideal.minimumf_def, Ideal.hostUnary_tanh_def]
  rfl

/-- The reference's result array is the specification's. -/
theorem result_eq : val_main_v59 (F := Ideal) a0 a1 a2 a3 a4 a5 a6 = G a0 a1 a2 a3 a4 a5 a6 := by
  funext i
  obtain ⟨r, j, rfl⟩ : ∃ (r : Fin 8192) (j : Fin 1024), i = ix2 r j := ⟨i 0, i 1, eq_ix2 i⟩
  rw [result_apply, G_ix2]

end Cert.TimeCell.Ref

end
-- ==== Proof.BodyValue.lean ====
/-
  The kernel body computes the specification on one block of rows.

  The body holds 256 rows at a time.  It forms the whole product `x · W` of the block's features with the
  (unrounded, at this reading) weights and adds the bias row; forms the outer product of the block's elapsed
  times with the time weights; forms the whole product `h · R`; cuts the three results into their column
  groups; and applies the gate arithmetic pointwise.  A matrix product into a zero accumulator read at an entry
  is the plain sum of products over the contracted index, a change of number format is the identity, and a
  column slice reads its operand `offset` columns further on; so the stored block at row `p`, unit `q` is
  `cellRow` of the block's row `p`.
-/
import proofs.«143826_j37254546325730_2_alg».proof.Proof.Gen.KernelIdeal.Frame
import proofs.«143826_j37254546325730_2_alg».proof.Proof.Spec
import Idealize.ShloMosaic.Lib.Pipeline.Value
import Idealize.ShloMosaic.Lib.ValueIdx
import Idealize.ShloMosaic.PureOps.Ideal.Laws

noncomputable section

namespace Cert.TimeCell.Body

open Cert.KernelIdeal Cert.KernelIdeal.Gen Idealize.ShloMosaic Idealize.ShloMosaic.ValueIdx Cert.TimeCell

/-- Two indices of a rank-two shape are equal when their coordinates are: both sides compute to the same pair. -/
local macro "idx2" : tactic =>
  `(tactic| (funext a; match a with
    | ⟨0, _⟩ => rfl
    | ⟨1, _⟩ => rfl))

/-! ## The two matrix products, read at an entry -/

theorem lhs1_row (i : S256x5120.Idx) (q : dot_S256x512_S512x5120_S256x5120_1_0_0_1_n_n.contr.Idx) : (dot_S256x512_S512x5120_S256x5120_1_0_0_1_n_n.lhsIdx i q 0).val = (i 0).val := by
  unfold DotDims.lhsIdx
  rw [dif_neg (show ¬(0 : Fin S256x512.rank) ∈ dot_S256x512_S512x5120_S256x5120_1_0_0_1_n_n.lhsBatch by decide), dif_pos (show (0 : Fin S256x512.rank) ∈ dot_S256x512_S512x5120_S256x5120_1_0_0_1_n_n.lhsNonContracting by decide)]
  rfl

theorem rhs1_col (i : S256x5120.Idx) (q : dot_S256x512_S512x5120_S256x5120_1_0_0_1_n_n.contr.Idx) : (dot_S256x512_S512x5120_S256x5120_1_0_0_1_n_n.rhsIdx i q 1).val = (i 1).val := by
  unfold DotDims.rhsIdx
  rw [dif_neg (show ¬(1 : Fin S512x5120.rank) ∈ dot_S256x512_S512x5120_S256x5120_1_0_0_1_n_n.rhsBatch by decide), dif_pos (show (1 : Fin S512x5120.rank) ∈ dot_S256x512_S512x5120_S256x5120_1_0_0_1_n_n.rhsNonContracting by decide)]
  rfl

/-- The features' product into a zero accumulator, at row `p`, column `n`: the sum over the 512 features. -/
theorem xw_apply (l : FVec Ideal S256x512 .bf16) (w : FVec Ideal S512x5120 .bf16) (p : Fin 256) (n : Fin 5120) :
    matmul dot_S256x512_S512x5120_S256x5120_1_0_0_1_n_n none l w (constant S256x5120 .f32 0x00000000#32) (ix2 p n) = ∑ k : Fin 512, l (ix2 p k) * w (ix2 k n) := by
  simp only [matmul]
  rw [Ideal.matmul_constant_zero_apply, ← Equiv.sum_comp (contrEquiv1 dot_S256x512_S512x5120_S256x5120_1_0_0_1_n_n 512 rfl rfl).symm]
  refine Finset.sum_congr rfl fun k _ => ?_
  have hk := contrEquiv1_symm_val dot_S256x512_S512x5120_S256x5120_1_0_0_1_n_n 512 rfl rfl k
  refine congrArg₂ (· * ·) (congrArg l ?_) (congrArg w ?_)
  · funext a; apply Fin.ext
    match a with
    | ⟨0, _⟩ => exact lhs1_row _ _
    | ⟨1, _⟩ => exact (dot_S256x512_S512x5120_S256x5120_1_0_0_1_n_n.lhsIdx_val_of_single rfl _ _).trans hk
  · funext a; apply Fin.ext
    match a with
    | ⟨0, _⟩ => exact (dot_S256x512_S512x5120_S256x5120_1_0_0_1_n_n.rhsIdx_val_of_single rfl _ _).trans hk
    | ⟨1, _⟩ => exact rhs1_col _ _

theorem lhs2_row (i : S256x4096.Idx) (q : dot_S256x1024_S1024x4096_S256x4096_1_0_0_1_n_n.contr.Idx) : (dot_S256x1024_S1024x4096_S256x4096_1_0_0_1_n_n.lhsIdx i q 0).val = (i 0).val := by
  unfold DotDims.lhsIdx
  rw [dif_neg (show ¬(0 : Fin S256x1024.rank) ∈ dot_S256x1024_S1024x4096_S256x4096_1_0_0_1_n_n.lhsBatch by decide), dif_pos (show (0 : Fin S256x1024.rank) ∈ dot_S256x1024_S1024x4096_S256x4096_1_0_0_1_n_n.lhsNonContracting by decide)]
  rfl

theorem rhs2_col (i : S256x4096.Idx) (q : dot_S256x1024_S1024x4096_S256x4096_1_0_0_1_n_n.contr.Idx) : (dot_S256x1024_S1024x4096_S256x4096_1_0_0_1_n_n.rhsIdx i q 1).val = (i 1).val := by
  unfold DotDims.rhsIdx
  rw [dif_neg (show ¬(1 : Fin S1024x4096.rank) ∈ dot_S256x1024_S1024x4096_S256x4096_1_0_0_1_n_n.rhsBatch by decide), dif_pos (show (1 : Fin S1024x4096.rank) ∈ dot_S256x1024_S1024x4096_S256x4096_1_0_0_1_n_n.rhsNonContracting by decide)]
  rfl

/-- The hidden state's product into a zero accumulator, at row `p`, column `n`: the sum over the 1024 entries. -/
theorem hr_apply (l : FVec Ideal S256x1024 .bf16) (w : FVec Ideal S1024x4096 .bf16) (p : Fin 256) (n : Fin 4096) :
    matmul dot_S256x1024_S1024x4096_S256x4096_1_0_0_1_n_n none l w (constant S256x4096 .f32 0x00000000#32) (ix2 p n) = ∑ k : Fin 1024, l (ix2 p k) * w (ix2 k n) := by
  simp only [matmul]
  rw [Ideal.matmul_constant_zero_apply, ← Equiv.sum_comp (contrEquiv1 dot_S256x1024_S1024x4096_S256x4096_1_0_0_1_n_n 1024 rfl rfl).symm]
  refine Finset.sum_congr rfl fun k _ => ?_
  have hk := contrEquiv1_symm_val dot_S256x1024_S1024x4096_S256x4096_1_0_0_1_n_n 1024 rfl rfl k
  refine congrArg₂ (· * ·) (congrArg l ?_) (congrArg w ?_)
  · funext a; apply Fin.ext
    match a with
    | ⟨0, _⟩ => exact lhs2_row _ _
    | ⟨1, _⟩ => exact (dot_S256x1024_S1024x4096_S256x4096_1_0_0_1_n_n.lhsIdx_val_of_single rfl _ _).trans hk
  · funext a; apply Fin.ext
    match a with
    | ⟨0, _⟩ => exact (dot_S256x1024_S1024x4096_S256x4096_1_0_0_1_n_n.rhsIdx_val_of_single rfl _ _).trans hk
    | ⟨1, _⟩ => exact rhs2_col _ _

/-! ## The three whole-block terms, read at an entry -/

/-- `x · W + b` of the block at row `p`, column `n`. -/
theorem z_apply (v0 : Vec Ideal S256x512 .f32) (v3 : Vec Ideal S512x5120 .bf16) (v6 : Vec Ideal S1x5120 .f32) (p : Fin 256) (n : Fin 5120) :
    k0_pay2 v0 v3 v6 (ix2 p n)
      = zrow (fun k => v0 (ix2 p k)) (fun k n => v3 (ix2 k n)) (fun n => v6 (ix2 ⟨0, by omega⟩ n)) n := by
  unfold k0_pay2 zrow
  rw [shapeCast_self, shapeCast_self, shapeCast_self]
  refine congrArg₂ (· + ·) (xw_apply _ _ p n) ?_
  exact broadcastTo_apply v6 broadcasts_S1x5120_S256x5120 (ix2 p n) (ix2 ⟨0, by omega⟩ n) (fun a => match a with
    | ⟨0, _⟩ => rfl
    | ⟨1, _⟩ => rfl)

/-- The outer product of the block's elapsed times with the time weights, at row `p`, column `n`. -/
theorem d_apply (v15 : Vec Ideal S256x1 .f32) (v17 : Vec Ideal S1x2048 .f32) (p : Fin 256) (n : Fin 2048) :
    k0_pay8 v15 v17 (ix2 p n) = v15 (ix2 p ⟨0, by omega⟩) * v17 (ix2 ⟨0, by omega⟩ n) := by
  unfold k0_pay8
  rw [shapeCast_self]
  refine congrArg₂ (· * ·) ?_ ?_
  · exact broadcastTo_apply v15 broadcasts_S256x1_S256x2048 (ix2 p n) (ix2 p ⟨0, by omega⟩) (fun a => match a with
      | ⟨0, _⟩ => rfl
      | ⟨1, _⟩ => rfl)
  · exact broadcastTo_apply v17 broadcasts_S1x2048_S256x2048 (ix2 p n) (ix2 ⟨0, by omega⟩ n) (fun a => match a with
      | ⟨0, _⟩ => rfl
      | ⟨1, _⟩ => rfl)

/-- `h · R` of the block at row `p`, column `n`. -/
theorem r_apply (v23 : Vec Ideal S256x1024 .f32) (v25 : Vec Ideal S1024x4096 .bf16) (p : Fin 256) (n : Fin 4096) :
    k0_pay10 v23 v25 (ix2 p n) = rrow (fun k => v23 (ix2 p k)) (fun k n => v25 (ix2 k n)) n := by
  unfold k0_pay10 rrow
  rw [shapeCast_self]
  exact hr_apply _ _ p n

/-! ## Their column groups -/

/-- The input gate's pre-activations: columns 0 … 1023 of `x · W + b`. -/
theorem zi_apply (v0 : Vec Ideal S256x512 .f32) (v3 : Vec Ideal S512x5120 .bf16) (v6 : Vec Ideal S1x5120 .f32) (p : Fin 256) (q : Fin 1024) :
    k0_pay3 v0 v3 v6 (ix2 p q)
      = zrow (fun k => v0 (ix2 p k)) (fun k n => v3 (ix2 k n)) (fun n => v6 (ix2 ⟨0, by omega⟩ n)) ⟨q.val, by omega⟩ := by
  unfold k0_pay3
  exact (extractStridedSlice_apply ![0, 0] (k0_pay2 v0 v3 v6) slices_S256x5120_o0_0_S256x1024 (ix2 p q) (ix2 p ⟨q.val, by omega⟩)
    (fun a => match a with
      | ⟨0, _⟩ => by show p.val = 0 + p.val; omega
      | ⟨1, _⟩ => by show q.val = 0 + q.val; omega)).trans (z_apply v0 v3 v6 p _)

/-- The forget gate's: columns 1024 … 2047. -/
theorem zf_apply (v0 : Vec Ideal S256x512 .f32) (v3 : Vec Ideal S512x5120 .bf16) (v6 : Vec Ideal S1x5120 .f32) (p : Fin 256) (q : Fin 1024) :
    k0_pay4 v0 v3 v6 (ix2 p q)
      = zrow (fun k => v0 (ix2 p k)) (fun k n => v3 (ix2 k n)) (fun n => v6 (ix2 ⟨0, by omega⟩ n)) ⟨1024 + q.val, by omega⟩ := by
  unfold k0_pay4
  exact (extractStridedSlice_apply ![0, 1024] (k0_pay2 v0 v3 v6) slices_S256x5120_o0_1024_S256x1024 (ix2 p q) (ix2 p ⟨1024 + q.val, by omega⟩)
    (fun a => match a with
      | ⟨0, _⟩ => by show p.val = 0 + p.val; omega
      | ⟨1, _⟩ => by show 1024 + q.val = 1024 + q.val; omega)).trans (z_apply v0 v3 v6 p _)

/-- The candidate's: columns 2048 … 3071. -/
theorem zc_apply (v0 : Vec Ideal S256x512 .f32) (v3 : Vec Ideal S512x5120 .bf16) (v6 : Vec Ideal S1x5120 .f32) (p : Fin 256) (q : Fin 1024) :
    k0_pay5 v0 v3 v6 (ix2 p q)
      = zrow (fun k => v0 (ix2 p k)) (fun k n => v3 (ix2 k n)) (fun n => v6 (ix2 ⟨0, by omega⟩ n)) ⟨2048 + q.val, by omega⟩ := by
  unfold k0_pay5
  exact (extractStridedSlice_apply ![0, 2048] (k0_pay2 v0 v3 v6) slices_S256x5120_o0_2048_S256x1024 (ix2 p q) (ix2 p ⟨2048 + q.val, by omega⟩)
    (fun a => match a with
      | ⟨0, _⟩ => by show p.val = 0 + p.val; omega
      | ⟨1, _⟩ => by show 2048 + q.val = 2048 + q.val; omega)).trans (z_apply v0 v3 v6 p _)

/-- The output gate's: columns 3072 … 4095. -/
theorem zo_apply (v0 : Vec Ideal S256x512 .f32) (v3 : Vec Ideal S512x5120 .bf16) (v6 : Vec Ideal S1x5120 .f32) (p : Fin 256) (q : Fin 1024) :
    k0_pay6 v0 v3 v6 (ix2 p q)
      = zrow (fun k => v0 (ix2 p k)) (fun k n => v3 (ix2 k n)) (fun n => v6 (ix2 ⟨0, by omega⟩ n)) ⟨3072 + q.val, by omega⟩ := by
  unfold k0_pay6
  exact (extractStridedSlice_apply ![0, 3072] (k0_pay2 v0 v3 v6) slices_S256x5120_o0_3072_S256x1024 (ix2 p q) (ix2 p ⟨3072 + q.val, by omega⟩)
    (fun a => match a with
      | ⟨0, _⟩ => by show p.val = 0 + p.val; omega
      | ⟨1, _⟩ => by show 3072 + q.val = 3072 + q.val; omega)).trans (z_apply v0 v3 v6 p _)

/-- The time gate's: columns 4096 … 5119. -/
theorem zT_apply (v0 : Vec Ideal S256x512 .f32) (v3 : Vec Ideal S512x5120 .bf16) (v6 : Vec Ideal S1x5120 .f32) (p : Fin 256) (q : Fin 1024) :
    k0_pay7 v0 v3 v6 (ix2 p q)
      = zrow (fun k => v0 (ix2 p k)) (fun k n => v3 (ix2 k n)) (fun n => v6 (ix2 ⟨0, by omega⟩ n)) ⟨4096 + q.val, by omega⟩ := by
  unfold k0_pay7
  exact (extractStridedSlice_apply ![0, 4096] (k0_pay2 v0 v3 v6) slices_S256x5120_o0_4096_S256x1024 (ix2 p q) (ix2 p ⟨4096 + q.val, by omega⟩)
    (fun a => match a with
      | ⟨0, _⟩ => by show p.val = 0 + p.val; omega
      | ⟨1, _⟩ => by show 4096 + q.val = 4096 + q.val; omega)).trans (z_apply v0 v3 v6 p _)

/-- The input gate's recurrent terms: columns 0 … 1023 of `h · R`. -/
theorem ri_apply (v23 : Vec Ideal S256x1024 .f32) (v25 : Vec Ideal S1024x4096 .bf16) (p : Fin 256) (q : Fin 1024) :
    k0_pay11 v23 v25 (ix2 p q) = rrow (fun k => v23 (ix2 p k)) (fun k n => v25 (ix2 k n)) ⟨q.val, by omega⟩ := by
  unfold k0_pay11
  exact (extractStridedSlice_apply ![0, 0] (k0_pay10 v23 v25) slices_S256x4096_o0_0_S256x1024 (ix2 p q) (ix2 p ⟨q.val, by omega⟩)
    (fun a => match a with
      | ⟨0, _⟩ => by show p.val = 0 + p.val; omega
      | ⟨1, _⟩ => by show q.val = 0 + q.val; omega)).trans (r_apply v23 v25 p _)

/-- The forget gate's: columns 1024 … 2047. -/
theorem rf_apply (v23 : Vec Ideal S256x1024 .f32) (v25 : Vec Ideal S1024x4096 .bf16) (p : Fin 256) (q : Fin 1024) :
    k0_pay12 v23 v25 (ix2 p q) = rrow (fun k => v23 (ix2 p k)) (fun k n => v25 (ix2 k n)) ⟨1024 + q.val, by omega⟩ := by
  unfold k0_pay12
  exact (extractStridedSlice_apply ![0, 1024] (k0_pay10 v23 v25) slices_S256x4096_o0_1024_S256x1024 (ix2 p q) (ix2 p ⟨1024 + q.val, by omega⟩)
    (fun a => match a with
      | ⟨0, _⟩ => by show p.val = 0 + p.val; omega
      | ⟨1, _⟩ => by show 1024 + q.val = 1024 + q.val; omega)).trans (r_apply v23 v25 p _)

/-- The candidate's: columns 2048 … 3071. -/
theorem rc_apply (v23 : Vec Ideal S256x1024 .f32) (v25 : Vec Ideal S1024x4096 .bf16) (p : Fin 256) (q : Fin 1024) :
    k0_pay13 v23 v25 (ix2 p q) = rrow (fun k => v23 (ix2 p k)) (fun k n => v25 (ix2 k n)) ⟨2048 + q.val, by omega⟩ := by
  unfold k0_pay13
  exact (extractStridedSlice_apply ![0, 2048] (k0_pay10 v23 v25) slices_S256x4096_o0_2048_S256x1024 (ix2 p q) (ix2 p ⟨2048 + q.val, by omega⟩)
    (fun a => match a with
      | ⟨0, _⟩ => by show p.val = 0 + p.val; omega
      | ⟨1, _⟩ => by show 2048 + q.val = 2048 + q.val; omega)).trans (r_apply v23 v25 p _)

/-- The output gate's: columns 3072 … 4095. -/
theorem ro_apply (v23 : Vec Ideal S256x1024 .f32) (v25 : Vec Ideal S1024x4096 .bf16) (p : Fin 256) (q : Fin 1024) :
    k0_pay14 v23 v25 (ix2 p q) = rrow (fun k => v23 (ix2 p k)) (fun k n => v25 (ix2 k n)) ⟨3072 + q.val, by omega⟩ := by
  unfold k0_pay14
  exact (extractStridedSlice_apply ![0, 3072] (k0_pay10 v23 v25) slices_S256x4096_o0_3072_S256x1024 (ix2 p q) (ix2 p ⟨3072 + q.val, by omega⟩)
    (fun a => match a with
      | ⟨0, _⟩ => by show p.val = 0 + p.val; omega
      | ⟨1, _⟩ => by show 3072 + q.val = 3072 + q.val; omega)).trans (r_apply v23 v25 p _)

/-- The output gate's time terms: columns 1024 … 2047 of the outer product. -/
theorem dO_apply (v15 : Vec Ideal S256x1 .f32) (v17 : Vec Ideal S1x2048 .f32) (p : Fin 256) (q : Fin 1024) :
    k0_pay9 v15 v17 (ix2 p q) = v15 (ix2 p ⟨0, by omega⟩) * v17 (ix2 ⟨0, by omega⟩ ⟨1024 + q.val, by omega⟩) := by
  unfold k0_pay9
  exact (extractStridedSlice_apply ![0, 1024] (k0_pay8 v15 v17) slices_S256x2048_o0_1024_S256x1024 (ix2 p q) (ix2 p ⟨1024 + q.val, by omega⟩)
    (fun a => match a with
      | ⟨0, _⟩ => by show p.val = 0 + p.val; omega
      | ⟨1, _⟩ => by show 1024 + q.val = 1024 + q.val; omega)).trans (d_apply v15 v17 p _)

/-- The time gate's time terms, columns 0 … 1023, already through the line and the lower clip of their hard sigmoid. -/
theorem dT_apply (v15 : Vec Ideal S256x1 .f32) (v17 : Vec Ideal S1x2048 .f32) (p : Fin 256) (q : Fin 1024) :
    k0_pay15 v15 v17 (ix2 p q)
      = max lo (slope * (v15 (ix2 p ⟨0, by omega⟩) * v17 (ix2 ⟨0, by omega⟩ ⟨q.val, by omega⟩)) + half) := by
  have e : extractStridedSlice S256x1024 ![0, 0] (k0_pay8 v15 v17) slices_S256x2048_o0_0_S256x1024 (ix2 p q)
      = v15 (ix2 p ⟨0, by omega⟩) * v17 (ix2 ⟨0, by omega⟩ ⟨q.val, by omega⟩) :=
    (extractStridedSlice_apply ![0, 0] (k0_pay8 v15 v17) slices_S256x2048_o0_0_S256x1024 (ix2 p q) (ix2 p ⟨q.val, by omega⟩)
      (fun a => match a with
        | ⟨0, _⟩ => by show p.val = 0 + p.val; omega
        | ⟨1, _⟩ => by show q.val = 0 + q.val; omega)).trans (d_apply v15 v17 p _)
  exact congrArg (fun u : EReal => max lo (slope * u + half)) e

/-! ## The gate arithmetic, pointwise -/

/-- Every operation after the column slices acts entry by entry, so the stored value at an entry is `cell` of the
    entries there.  The time gate's inner hard sigmoid arrives half done (`m`: the line and the lower clip). -/
theorem gate_apply (zi zf zc zo zT dO ri rf rc ro m : FVec Ideal S256x1024 .f32) (c : Vec Ideal S256x1024 .f32)
    (y : S256x1024.Idx) (dT : EReal) (hm : m y = max lo (slope * dT + half)) :
    k0_pay1 (k0_pay17 zi zf zc zT ri rf rc m (k0_pay16 (F := Ideal)) c) (k0_pay18 zo dO ro) (Scalar.ofBits .f32 0x3F800000#32) (k0_pay19 (F := Ideal)) y
      = cell (zi y) (zf y) (zc y) (zo y) (zT y) dT (dO y) (ri y) (rf y) (rc y) (ro y) (c y) := by
  unfold cell hsig
  rw [← hm]
  rfl

/-! ## The stored block -/

theorem zeros2 : (![0, 0] : Fin 2 → Nat) = fun _ => 0 := funext fun a => by fin_cases a <;> rfl

/-- What the body leaves in the output block, at row `p`, unit `q`, from the eight input blocks. -/
theorem out_apply (x0 : Vec Ideal S256x512 .f32) (x1 : Vec Ideal S256x1 .f32) (x2 x3 : Vec Ideal S256x1024 .f32)
    (x4 : Vec Ideal S512x5120 .bf16) (x5 : Vec Ideal S1x2048 .f32) (x6 : Vec Ideal S1024x4096 .bf16) (x7 : Vec Ideal S1x5120 .f32)
    (p : Fin 256) (q : Fin 1024) :
    out0_8 x0 x1 x2 x3 x4 x5 x6 x7 (ix2 p q)
      = cellRow (fun k => x0 (ix2 p k)) (x1 (ix2 p ⟨0, by omega⟩)) (fun k => x2 (ix2 p k)) (x3 (ix2 p q))
          (fun k n => x4 (ix2 k n)) (fun n => x5 (ix2 ⟨0, by omega⟩ n)) (fun k n => x6 (ix2 k n)) (fun n => x7 (ix2 ⟨0, by omega⟩ n)) q := by
  unfold out0_8
  rw [View.canon_unit_zero zeros2]
  simp only [View.ld_unit_zero (S := S256x512) zeros2, View.ld_unit_zero (S := S512x5120) zeros2, View.ld_unit_zero (S := S1x5120) zeros2,
    View.ld_unit_zero (S := S256x1) zeros2, View.ld_unit_zero (S := S1x2048) zeros2, View.ld_unit_zero (S := S256x1024) zeros2,
    View.ld_unit_zero (S := S1024x4096) zeros2]
  refine (gate_apply _ _ _ _ _ _ _ _ _ _ _ _ (ix2 p q) _ (dT_apply x1 x5 p q)).trans ?_
  unfold cellRow
  rw [zi_apply, zf_apply, zc_apply, zo_apply, zT_apply, dO_apply, ri_apply, rf_apply, rc_apply, ro_apply]

end Cert.TimeCell.Body

end
-- ==== Proof.ArrayValue.lean ====
/-
  From blocks to the whole array.

  The grid has 32 points; point `t` holds rows `256 t … 256 t + 255` of the features, the elapsed times, the two
  state arrays and the result, and the whole of the four weight arrays.  Before the region the host cuts the
  combined input into its first 512 columns (the features) and its last column (the elapsed times), changes the
  number format of the two weight matrices (the identity at this reading) and views the bias as a one-row matrix.
  So every block entry the body reads is an entry of an argument array in row `256 t + p`, and by the body's value
  the block that point `t` writes back is rows `256 t …` of the specification's array.  The 32 blocks cover the
  8192 rows, so the result array ends holding the specification's array.
-/
import proofs.«143826_j37254546325730_2_alg».proof.Proof.Gen.KernelIdeal.Value
import proofs.«143826_j37254546325730_2_alg».proof.Proof.BodyValue
import proofs.«143826_j37254546325730_2_alg».proof.Proof.Spec
import Idealize.ShloMosaic.Lib.Pipeline.Value
import Idealize.ShloMosaic.Lib.StableHlo.Run
import Idealize.ShloMosaic.Lib.Tactic

noncomputable section

open Idealize.ShloMosaic Idealize.ShloMosaic.TcCoe Idealize.SL.Sem Idealize.ShloMosaic.StableHlo
open Idealize.ShloMosaic.Pipeline (Dat)

namespace Cert.TimeCell.Arr

open Cert.KernelIdeal Cert.KernelIdeal.Gen Cert.KernelIdeal.Value Idealize.ShloMosaic.ValueIdx Cert.TimeCell

variable (m : (ℓ : Loc nD τ sig) → Buf (Elt Ideal) ℓ) (ρ : Dev nD → PrngReg)

/-- The printed index maps, decided over the 32 points: the four row-blocked inputs and the output are at block
    row `t`, block column 0; the four weight windows stay at block (0, 0). -/
theorem idx_facts : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = t.val ∧ win0_2.index t (1 : Fin 2) = 0
    ∧ win0_3.index t (0 : Fin 2) = t.val ∧ win0_3.index t (1 : Fin 2) = 0
    ∧ win0_4.index t (0 : Fin 2) = 0 ∧ win0_4.index t (1 : Fin 2) = 0
    ∧ win0_5.index t (0 : Fin 2) = 0 ∧ win0_5.index t (1 : Fin 2) = 0
    ∧ win0_6.index t (0 : Fin 2) = 0 ∧ win0_6.index t (1 : Fin 2) = 0
    ∧ win0_7.index t (0 : Fin 2) = 0 ∧ win0_7.index t (1 : Fin 2) = 0
    ∧ win0_8.index t (0 : Fin 2) = t.val ∧ win0_8.index t (1 : Fin 2) = 0 :=
  (by decide +kernel : ∀ t : Fin grid0.N, _)

theorem point_lt (t : Fin cfg0.N) : t.val < 32 := lt_of_lt_of_eq t.isLt N_0

/-- Row `p` of point `t`'s blocks is row `256 t + p` of the arrays. -/
def row (t : Fin cfg0.N) (p : Fin 256) : Fin 8192 := ⟨256 * t.val + p.val, by have := point_lt t; omega⟩

/-! ## The arrays the host writes before the region -/

theorem V_features (c : Dev nD) : (V m c main_v0 : S8192x512.Idx → Elt Ideal .f32)
    = extractStridedSlice S8192x512 ![0, 0] (m ((c : Thread nD τ).loc main_arg0)) slices_S8192x513_S8192x512_0_0 := by
  dsimp only [Gen.V, Gen.hostOps0]; (after_results) <;> rfl

theorem V_elapsed (c : Dev nD) : (V m c main_v1 : S8192x1.Idx → Elt Ideal .f32)
    = extractStridedSlice S8192x1 ![0, 512] (m ((c : Thread nD τ).loc main_arg0)) slices_S8192x513_S8192x1_0_512 := by
  dsimp only [Gen.V, Gen.hostOps0]; (after_results) <;> rfl

theorem V_weights (c : Dev nD) : (V m c main_v2 : S512x5120.Idx → EReal)
    = (m ((c : Thread nD τ).loc main_arg3) : S512x5120.Idx → EReal) := by
  dsimp only [Gen.V, Gen.hostOps0]; (after_results) <;> rfl

theorem V_recurrent (c : Dev nD) : (V m c main_v3 : S1024x4096.Idx → EReal)
    = (m ((c : Thread nD τ).loc main_arg5) : S1024x4096.Idx → EReal) := by
  dsimp only [Gen.V, Gen.hostOps0]; (after_results) <;> rfl

theorem V_bias (c : Dev nD) : (V m c main_v4 : S1x5120.Idx → Elt Ideal .f32)
    = shapeCast S1x5120 (m ((c : Thread nD τ).loc main_arg6)) shapeCasts_S5120_S1x5120 := by
  dsimp only [Gen.V, Gen.hostOps0]; (after_results) <;> rfl

/-! ## Each window's block entries, as entries of the argument arrays -/

/-- The features' block: row `p`, feature `k`. -/
theorem features_apply (c : Dev nD) (t : Fin cfg0.N) (p : Fin 256) (k : Fin 512) :
    (iblk m c 0 t : Vec Ideal S256x512 .f32) (ix2 p k)
      = (m ((c : Thread nD τ).loc main_arg0) : S8192x513.Idx → EReal) (ix2 (row t p) ⟨k.val, by omega⟩) := by
  obtain ⟨h0, h1, -⟩ := idx_facts t
  unfold iblk
  rw [View.read_apply]
  show (V m c main_v0 : S8192x512.Idx → Elt Ideal .f32) _ = _
  rw [V_features]
  refine extractStridedSlice_apply _ _ _ _ _ (fun a => ?_)
  match a with
  | ⟨0, _⟩ => show 256 * t.val + p.val = 0 + (win0_0.index t (0 : Fin 2) * 256 + 1 * p.val); rw [h0]; omega
  | ⟨1, _⟩ => show k.val = 0 + (win0_0.index t (1 : Fin 2) * 512 + 1 * k.val); rw [h1]; omega

/-- The elapsed times' block: row `p` (its one column is the array's last). -/
theorem elapsed_apply (c : Dev nD) (t : Fin cfg0.N) (p : Fin 256) :
    (iblk m c 1 t : Vec Ideal S256x1 .f32) (ix2 p ⟨0, by omega⟩)
      = (m ((c : Thread nD τ).loc main_arg0) : S8192x513.Idx → EReal) (ix2 (row t p) ⟨512, by omega⟩) := by
  obtain ⟨-, -, h0, h1, -⟩ := idx_facts t
  unfold iblk
  rw [View.read_apply]
  show (V m c main_v1 : S8192x1.Idx → Elt Ideal .f32) _ = _
  rw [V_elapsed]
  refine extractStridedSlice_apply _ _ _ _ _ (fun a => ?_)
  match a with
  | ⟨0, _⟩ => show 256 * t.val + p.val = 0 + (win0_1.index t (0 : Fin 2) * 256 + 1 * p.val); rw [h0]; omega
  | ⟨1, _⟩ => show 512 = 512 + (win0_1.index t (1 : Fin 2) * 1 + 1 * 0); rw [h1]

/-- The previous hidden state's block: row `p`, entry `k`. -/
theorem hidden_apply (c : Dev nD) (t : Fin cfg0.N) (p : Fin 256) (k : Fin 1024) :
    (iblk m c 2 t : Vec Ideal S256x1024 .f32) (ix2 p k)
      = (m ((c : Thread nD τ).loc main_arg1) : S8192x1024.Idx → EReal) (ix2 (row t p) k) := by
  obtain ⟨-, -, -, -, h0, h1, -⟩ := idx_facts t
  unfold iblk
  rw [View.read_apply]
  show V m c main_arg1 _ = _
  rw [V_main_arg1]
  refine congrArg (m ((c : Thread nD τ).loc main_arg1) : S8192x1024.Idx → EReal) (funext fun a => Fin.ext ?_)
  match a with
  | ⟨0, _⟩ => show win0_2.index t (0 : Fin 2) * 256 + 1 * p.val = 256 * t.val + p.val; rw [h0]; omega
  | ⟨1, _⟩ => show win0_2.index t (1 : Fin 2) * 1024 + 1 * k.val = k.val; rw [h1]; omega

/-- The previous cell state's block: row `p`, unit `q`. -/
theorem cstate_apply (c : Dev nD) (t : Fin cfg0.N) (p : Fin 256) (q : Fin 1024) :
    (iblk m c 3 t : Vec Ideal S256x1024 .f32) (ix2 p q)
      = (m ((c : Thread nD τ).loc main_arg2) : S8192x1024.Idx → EReal) (ix2 (row t p) q) := by
  obtain ⟨-, -, -, -, -, -, h0, h1, -⟩ := idx_facts t
  unfold iblk
  rw [View.read_apply]
  show V m c main_arg2 _ = _
  rw [V_main_arg2]
  refine congrArg (m ((c : Thread nD τ).loc main_arg2) : S8192x1024.Idx → EReal) (funext fun a => Fin.ext ?_)
  match a with
  | ⟨0, _⟩ => show win0_3.index t (0 : Fin 2) * 256 + 1 * p.val = 256 * t.val + p.val; rw [h0]; omega
  | ⟨1, _⟩ => show win0_3.index t (1 : Fin 2) * 1024 + 1 * q.val = q.val; rw [h1]; omega

/-- The input weights' block is the whole array, its number format changed (no change at this reading). -/
theorem weights_apply (c : Dev nD) (t : Fin cfg0.N) (k : Fin 512) (n : Fin 5120) :
    (iblk m c 4 t : Vec Ideal S512x5120 .bf16) (ix2 k n)
      = (m ((c : Thread nD τ).loc main_arg3) : S512x5120.Idx → EReal) (ix2 k n) := by
  obtain ⟨-, -, -, -, -, -, -, -, h0, h1, -⟩ := idx_facts t
  unfold iblk
  rw [View.read_apply]
  show (V m c main_v2 : S512x5120.Idx → EReal) _ = _
  rw [V_weights]
  refine congrArg (m ((c : Thread nD τ).loc main_arg3) : S512x5120.Idx → EReal) (funext fun a => Fin.ext ?_)
  match a with
  | ⟨0, _⟩ => show win0_4.index t (0 : Fin 2) * 512 + 1 * k.val = k.val; rw [h0]; omega
  | ⟨1, _⟩ => show win0_4.index t (1 : Fin 2) * 5120 + 1 * n.val = n.val; rw [h1]; omega

/-- The time weights' block is the whole one-row array. -/
theorem timew_apply (c : Dev nD) (t : Fin cfg0.N) (n : Fin 2048) :
    (iblk m c 5 t : Vec Ideal S1x2048 .f32) (ix2 ⟨0, by omega⟩ n)
      = (m ((c : Thread nD τ).loc main_arg4) : S1x2048.Idx → EReal) (ix2 ⟨0, by omega⟩ n) := by
  obtain ⟨-, -, -, -, -, -, -, -, -, -, h0, h1, -⟩ := idx_facts t
  unfold iblk
  rw [View.read_apply]
  show V m c main_arg4 _ = _
  rw [V_main_arg4]
  refine congrArg (m ((c : Thread nD τ).loc main_arg4) : S1x2048.Idx → EReal) (funext fun a => Fin.ext ?_)
  match a with
  | ⟨0, _⟩ => show win0_5.index t (0 : Fin 2) * 1 + 1 * 0 = 0; rw [h0]
  | ⟨1, _⟩ => show win0_5.index t (1 : Fin 2) * 2048 + 1 * n.val = n.val; rw [h1]; omega

/-- The recurrent weights' block is the whole array, its number format changed. -/
theorem recurrent_apply (c : Dev nD) (t : Fin cfg0.N) (k : Fin 1024) (n : Fin 4096) :
    (iblk m c 6 t : Vec Ideal S1024x4096 .bf16) (ix2 k n)
      = (m ((c : Thread nD τ).loc main_arg5) : S1024x4096.Idx → EReal) (ix2 k n) := by
  obtain ⟨-, -, -, -, -, -, -, -, -, -, -, -, h0, h1, -⟩ := idx_facts t
  unfold iblk
  rw [View.read_apply]
  show (V m c main_v3 : S1024x4096.Idx → EReal) _ = _
  rw [V_recurrent]
  refine congrArg (m ((c : Thread nD τ).loc main_arg5) : S1024x4096.Idx → EReal) (funext fun a => Fin.ext ?_)
  match a with
  | ⟨0, _⟩ => show win0_6.index t (0 : Fin 2) * 1024 + 1 * k.val = k.val; rw [h0]; omega
  | ⟨1, _⟩ => show win0_6.index t (1 : Fin 2) * 4096 + 1 * n.val = n.val; rw [h1]; omega

/-- The bias block is the bias vector viewed as one row: entry (0, n) of the row is entry `n` of the vector. -/
theorem bias_apply (c : Dev nD) (t : Fin cfg0.N) (n : Fin 5120) :
    (iblk m c 7 t : Vec Ideal S1x5120 .f32) (ix2 ⟨0, by omega⟩ n)
      = (m ((c : Thread nD τ).loc main_arg6) : S5120.Idx → EReal) (ix1 n) := by
  obtain ⟨-, -, -, -, -, -, -, -, -, -, -, -, -, -, h0, h1, -⟩ := idx_facts t
  unfold iblk
  rw [View.read_apply]
  show (V m c main_v4 : S1x5120.Idx → Elt Ideal .f32) _ = _
  rw [V_bias]
  refine shapeCast_apply _ _ _ _ ?_
  refine (Shape.rowMajor_val_one (d := ![5120]) (ix1 n)).trans
    (Eq.trans ?_ (Shape.rowMajor_val_two (d := ![1, 5120]) (((cfg0.win 7).blk t).view.emb (ix2 ⟨0, by omega⟩ n))).symm)
  show n.val = (win0_7.index t (0 : Fin 2) * 1 + 1 * 0) * 5120 + (win0_7.index t (1 : Fin 2) * 5120 + 1 * n.val)
  rw [h0, h1]; omega

/-- The output block's entry (p, q) is the result array's entry (256 t + p, q). -/
theorem out_emb (t : Fin cfg0.N) (p : Fin 256) (q : Fin 1024) :
    (((cfg0.win 8).blk t).view.emb (ix2 p q) : S8192x1024.Idx) = ix2 (row t p) q := by
  obtain ⟨-, -, -, -, -, -, -, -, -, -, -, -, -, -, -, -, h0, h1⟩ := idx_facts t
  funext a; apply Fin.ext
  match a with
  | ⟨0, _⟩ => show win0_8.index t (0 : Fin 2) * 256 + 1 * p.val = 256 * t.val + p.val; rw [h0]; omega
  | ⟨1, _⟩ => show win0_8.index t (1 : Fin 2) * 1024 + 1 * q.val = q.val; rw [h1]; omega

/-! ## What a point writes back, the cover, the run -/

/-- The specification's array of the argument arrays as launched. -/
abbrev spec (c : Dev nD) : S8192x1024.Idx → Elt Ideal .f32 :=
  G (m ((c : Thread nD τ).loc main_arg0)) (m ((c : Thread nD τ).loc main_arg1)) (m ((c : Thread nD τ).loc main_arg2))
    (m ((c : Thread nD τ).loc main_arg3)) (m ((c : Thread nD τ).loc main_arg4)) (m ((c : Thread nD τ).loc main_arg5))
    (m ((c : Thread nD τ).loc main_arg6))

/-- The body's stored block at point `t`, entry (p, q), is the specification at (256 t + p, q). -/
theorem stored_apply (c : Dev nD) (t : Fin cfg0.N) (p : Fin 256) (q : Fin 1024) :
    out0_8 (iblk m c 0 t) (iblk m c 1 t) (iblk m c 2 t) (iblk m c 3 t) (iblk m c 4 t) (iblk m c 5 t) (iblk m c 6 t) (iblk m c 7 t) (ix2 p q)
      = spec m c (ix2 (row t p) q) := by
  refine (Body.out_apply (iblk m c 0 t) (iblk m c 1 t) (iblk m c 2 t) (iblk m c 3 t) (iblk m c 4 t) (iblk m c 5 t) (iblk m c 6 t) (iblk m c 7 t) p q).trans ?_
  show _ = rowOut _ _ _ _ _ _ _ (row t p) q
  unfold rowOut
  simp only [features_apply m c t, elapsed_apply m c t, hidden_apply m c t, cstate_apply m c t, weights_apply m c t,
    timew_apply m c t, recurrent_apply m c t, bias_apply m c t]

/-- The same at any index of the block, through the block's place in the array. -/
theorem stored_eq (c : Dev nD) (t : Fin cfg0.N) (y : S256x1024.Idx) :
    out0_8 (iblk m c 0 t) (iblk m c 1 t) (iblk m c 2 t) (iblk m c 3 t) (iblk m c 4 t) (iblk m c 5 t) (iblk m c 6 t) (iblk m c 7 t) y
      = spec m c (((cfg0.win 8).blk t).view.emb y) := by
  obtain ⟨p, q, rfl⟩ : ∃ (p : Fin 256) (q : Fin 1024), y = ix2 p q := ⟨y 0, y 1, eq_ix2 y⟩
  rw [out_emb]
  exact stored_apply m c t p q

/-- WHAT POINT `t` WRITES BACK is block `t` of the specification's array. -/
theorem flushed_eq (c : Dev nD) (t : Fin cfg0.N) :
    (dats m 0 c).flushed 8 t = ((cfg0.win 8).blk t).view.read (Elt Ideal) (spec m c) := by
  show (cfg0.win 8).cut (grid0.coords t) ((dats m 0 c).after 8 t) = _
  rw [after0_8]
  funext y
  exact stored_eq m c t y

/-- An index of the result array is in point `t`'s block iff each coordinate is in the block's range on its axis. -/
theorem mem_blk (t : Fin cfg0.N) (i : S8192x1024.Idx) :
    i ∈ ((cfg0.win 8).blk t).view.set ↔ ∀ a : Fin 2, win0_8.index t a * S256x1024.size a ≤ (i a).val ∧ (i a).val < win0_8.index t a * S256x1024.size a + S256x1024.size a := by
  show i ∈ ((View.whole main_v5).slice (win0_8.rect t)).set ↔ _
  rw [View.set_slice_whole, Rect.mem_set_unit]
  exact Iff.rfl

/-- Every row is in the block of the point numbered by the row's quotient by 256. -/
theorem cover (i : S8192x1024.Idx) : ∃ t : Fin cfg0.N, (cfg0.win 8).flush t = true ∧ i ∈ ((cfg0.win 8).blk t).view.set := by
  have hi0 : (i 0).val < 8192 := (i 0).isLt
  have hi1 : (i 1).val < 1024 := (i 1).isLt
  let t : Fin cfg0.N := ⟨(i 0).val / 256, by rw [show cfg0.N = 32 from N_0]; omega⟩
  obtain ⟨-, -, -, -, -, -, -, -, -, -, -, -, -, -, -, -, h0, h1⟩ := idx_facts t
  have ht : t.val = (i 0).val / 256 := rfl
  refine ⟨t, flush0_8 t, ?_⟩
  rw [mem_blk]
  intro a
  match a with
  | ⟨0, _⟩ => show win0_8.index t (0 : Fin 2) * 256 ≤ (i 0).val ∧ (i 0).val < win0_8.index t (0 : Fin 2) * 256 + 256; rw [h0, ht]; omega
  | ⟨1, _⟩ => show win0_8.index t (1 : Fin 2) * 1024 ≤ (i 1).val ∧ (i 1).val < win0_8.index t (1 : Fin 2) * 1024 + 1024; rw [h1]; omega

/-- THE RESULT ARRAY after the run is the specification's array. -/
theorem final (c : Dev nD) : (dats m 0 c).arrAt 8 cfg0.N = spec m c :=
  (dats m 0 c).arrAt_eq_of_cover 8 (spec m c) (fun t _ => flushed_eq m c t) cover

/-- The kernel's run, read: the result array at the specification of the arguments, the arguments unchanged. -/
theorem run : θ_run defs (onTc (τ := τ) (main (F := Ideal))) ⟨m, fun _ => 0, ρ⟩ fun r => ∀ c : Dev nD,
      r.2.mem ((c : Thread nD τ).loc main_v5) = spec m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6) :=
  (θ_run defs _ _).mono (fun r h c => ⟨(h c).1.trans (final m c), (h c).2⟩) (Value.run_blocks m ρ)

end Cert.TimeCell.Arr

end
-- ==== Proof.lean ====
/-
  One step of a time-aware LSTM cell, 8192 rows by 1024 units: the blocked kernel against the whole-array
  reference, on the extended reals.

  Both programs compute, for row `r` and unit `j`,

      h' = σ((z₃ + d₁) + r₃) · tanh( σ(z₁ + r₁) · c + (σ(z₀ + r₀) · σ(z₄ + σ(d₀))) · tanh(z₂ + r₂) )

  where `z_g`, `d_g`, `r_g` are column `g · 1024 + j` of `x · W + b`, of `δ · tk` and of `h · R` for the row, and
  `σ u = min 1 (max 0 (0.2 · u + 0.5))` with the same binary32 constants on both sides (Proof/Spec.lean).

  The kernel works on 32 blocks of 256 rows; in each it forms the three whole products, cuts them into column
  groups and applies the gate arithmetic entry by entry (Proof/BodyValue.lean), and the blocks it writes back tile
  the result array (Proof/ArrayValue.lean).  The reference cuts the recurrent weights into four column groups
  before multiplying, takes the time term as a product sum over a single index, and applies the same arithmetic
  to whole arrays (Proof/RefValue.lean).  The two differ only in where the column slices sit relative to the
  product sums, in the product over one index being written as a sum, and in number-format changes that are the
  identity on the extended reals; no law of arithmetic beyond these is used, so the finiteness of the inputs is
  not needed for the equality.

  The kernel's idealization rewrote nothing, so there is nothing to preserve beyond the text read at the other
  instance; the three frames are the generated ones (the reference's is its generated run with the result dropped).
-/
import proofs.«143826_j37254546325730_2_alg».proof.Defs
import proofs.«143826_j37254546325730_2_alg».proof.Proof.Gen.Kernel
import proofs.«143826_j37254546325730_2_alg».proof.Proof.Gen.Kernel.Skeleton
import proofs.«143826_j37254546325730_2_alg».proof.Proof.Gen.Kernel.Launch
import proofs.«143826_j37254546325730_2_alg».proof.Proof.Gen.Kernel.Points
import proofs.«143826_j37254546325730_2_alg».proof.Proof.Gen.Kernel.Frame
import proofs.«143826_j37254546325730_2_alg».proof.Proof.Gen.KernelIdeal
import proofs.«143826_j37254546325730_2_alg».proof.Proof.Gen.KernelIdeal.Skeleton
import proofs.«143826_j37254546325730_2_alg».proof.Proof.Gen.KernelIdeal.Launch
import proofs.«143826_j37254546325730_2_alg».proof.Proof.Gen.KernelIdeal.Points
import proofs.«143826_j37254546325730_2_alg».proof.Proof.Gen.KernelIdeal.Frame
import proofs.«143826_j37254546325730_2_alg».proof.Proof.Gen.ReferenceIdeal
import proofs.«143826_j37254546325730_2_alg».proof.Proof.Gen.Pre_finite_inputs
import proofs.«143826_j37254546325730_2_alg».proof.Proof.Gen.KernelIdeal.Value
import proofs.«143826_j37254546325730_2_alg».proof.Proof.Gen.ReferenceIdeal.Run
import proofs.«143826_j37254546325730_2_alg».proof.Proof.Gen.ReferenceIdeal.Read
import proofs.«143826_j37254546325730_2_alg».proof.Proof.Spec
import proofs.«143826_j37254546325730_2_alg».proof.Proof.RefValue
import proofs.«143826_j37254546325730_2_alg».proof.Proof.BodyValue
import proofs.«143826_j37254546325730_2_alg».proof.Proof.ArrayValue
import Idealize.ShloMosaic.Adequacy
import Idealize.ShloMosaic.Init

noncomputable section

namespace Cert.Proof

open Idealize.ShloMosaic Idealize.SL.Sem

theorem frame_kernel [Cert.Kernel.Facts] [Cert.Pre_finite_inputs.Facts] : Cert.frame_Kernel :=
  fun m ρ _ => Cert.Kernel.Gen.frame m ρ

theorem frame_kernelIdeal [Cert.KernelIdeal.Facts] [Cert.Pre_finite_inputs.Facts] : Cert.frame_KernelIdeal :=
  fun m ρ _ => Cert.KernelIdeal.Gen.frame m ρ

/-- The reference has no kernel: its frame is its run with the result forgotten. -/
theorem frame_reference [Cert.ReferenceIdeal.Facts] [Cert.Pre_finite_inputs.Facts] : Cert.frame_ReferenceIdeal :=
  fun m ρ _ => (θ_run Cert.ReferenceIdeal.defs _ _).mono (fun _ h c => (h c).2) (Cert.ReferenceIdeal.Value.run (F := Ideal) m ρ)

/-- From memories that agree on the seven arguments, the kernel's result array ends at the specification of its
    arguments and the reference's at the specification of its own: the same array. -/
theorem algebraic [Cert.KernelIdeal.Facts] [Cert.ReferenceIdeal.Facts] [Cert.Pre_finite_inputs.Facts] :
    Cert.algebraic_KernelIdeal_ReferenceIdeal := by
  intro m ρ m' ρ' _ hagree
  refine ⟨fun c => Cert.TimeCell.Arr.spec m c, Cert.TimeCell.Arr.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v59_eq, Cert.TimeCell.Ref.result_eq]
  obtain ⟨e0, e1, e2, e3, e4, e5, e6⟩ := hagree c
  rw [e0, e1, e2, e3, e4, e5, e6]

theorem claim : Cert.Claim :=
  ⟨Cert.Kernel.Gen.facts, Cert.KernelIdeal.Gen.facts, Cert.ReferenceIdeal.Gen.facts, Cert.Pre_finite_inputs.Gen.facts,
    frame_kernel, frame_kernelIdeal, frame_reference, trivial, algebraic⟩

end Cert.Proof

end
